-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel

variable [Facts]

def fn {F : FTy → Type} [FloatOps F] (main_arg0 : FVec F S8x4096x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  main_v3
-- ==== Kernel.lean ====
abbrev S8x4096x1024 : Shape := ⟨3, ![8, 4096, 1024]⟩
abbrev S32768x1024 : Shape := ⟨2, ![32768, 1024]⟩
abbrev S2x16384x1024 : Shape := ⟨3, ![2, 16384, 1024]⟩
abbrev S2x1024x1024 : Shape := ⟨3, ![2, 1024, 1024]⟩
abbrev S2x1x1 : Shape := ⟨3, ![2, 1, 1]⟩
abbrev S1x2048x1024 : Shape := ⟨3, ![1, 2048, 1024]⟩
abbrev S1x1024x1024 : Shape := ⟨3, ![1, 1024, 1024]⟩
abbrev S1x1x1 : Shape := ⟨3, ![1, 1, 1]⟩
abbrev S1024x1024 : Shape := ⟨2, ![1024, 1024]⟩
abbrev S1x1024 : Shape := ⟨2, ![1, 1024]⟩
abbrev S1x1 : Shape := ⟨2, ![1, 1]⟩
abbrev S2048x1024 : Shape := ⟨2, ![2048, 1024]⟩
abbrev S1024 : Shape := ⟨1, ![1024]⟩
abbrev S2048 : Shape := ⟨1, ![2048]⟩
abbrev S1x2048 : Shape := ⟨2, ![1, 2048]⟩
abbrev S1 : Shape := ⟨1, ![1]⟩
abbrev S_ : Shape := ⟨0, ![]⟩

abbrev nBuf : Space → Nat
  | .hbm => 23
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .f32⟩
  | .hbm, ⟨2, _⟩ => ⟨S2x16384x1024, .f32⟩
  | .hbm, ⟨3, _⟩ => ⟨S2x1024x1024, .f32⟩
  | .hbm, ⟨4, _⟩ => ⟨S2x1x1, .f32⟩
  | .hbm, ⟨5, _⟩ => ⟨S2x1x1, .f32⟩
  | .hbm, ⟨6, _⟩ => ⟨S1024x1024, .i32⟩
  | .hbm, ⟨7, _⟩ => ⟨S1024x1024, .i32⟩
  | .hbm, ⟨8, _⟩ => ⟨S_, .i32⟩
  | .hbm, ⟨9, _⟩ => ⟨S1024x1024, .i32⟩
  | .hbm, ⟨10, _⟩ => ⟨S1024x1024, .i32⟩
  | .hbm, ⟨11, _⟩ => ⟨S1024x1024, .i1⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1024x1024, .f32⟩
  | .local _ .vmem, ⟨9, _⟩ => ⟨S1x1024, .f32⟩
  | .local _ .vmem, ⟨10, _⟩ => ⟨S1x1, .f32⟩
  | .local _ .vmem, ⟨11, _⟩ => ⟨S1x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_27 : BitVec 32 := 0#32
  let v57 : BitVec 1 := Scalar.cmpi .ne v56 c0_i32_27
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x4096x1024_S32768x1024 : S8x4096x1024.ShapeCasts S32768x1024
  shapeCasts_S32768x1024_S2x16384x1024 : S32768x1024.ShapeCasts S2x16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  reduces_S2048x1024_S1024 : S2048x1024.Reduces [0] S1024
  shapeCasts_S1024_S1x1024 : S1024.ShapeCasts S1x1024
  reduces_S2048x1024_S2048 : S2048x1024.Reduces [1] S2048
  shapeCasts_S2048_S1x2048 : S2048.ShapeCasts S1x2048
  reduces_S1x2048_S1 : S1x2048.Reduces [1] S1
  shapeCasts_S1_S1x1 : S1.ShapeCasts S1x1
  inpos_S1x1_p0_0 : ∀ a, (![0, 0] : Fin 2 → Nat) a < S1x1.size a
  shapeCasts_S2048x1024_S1x2048x1024 : S2048x1024.ShapeCasts S1x2048x1024
  reduces_S1x2048x1024_S1 : S1x2048x1024.Reduces [1, 2] S1
  shapeCasts_S1_S1x1x1 : S1.ShapeCasts S1x1x1
  inpos_S1x1x1_p0_0_0 : ∀ a, (![0, 0, 0] : Fin 3 → Nat) a < S1x1x1.size a
  iota_S1024x1024_d0_w32 : S1024x1024.Iotas .tc 32 [0]
  iota_S1024x1024_d1_w32 : S1024x1024.Iotas .tc 32 [1]
  natLt_1_32 : 1 < 32
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  bcast_S_S1024x1024 : S_.BroadcastsInDim S1024x1024 (![] : Fin 0 → Fin S1024x1024.rank)
  reducesTo_S2x1024x1024_S1024x1024_d0 : S2x1024x1024.ReducesTo [0] S1024x1024
  h_S_ : 0 < S_.numel
  reducesTo_S2x1x1_S_d0_1_2 : S2x1x1.ReducesTo [0, 1, 2] S_
  dot_S2048x1024_S2048x1024_S1024x1024_0_0_1_1_n_n_wf : DotDims.WF S2048x1024 S2048x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x16384x1024.size a
  hwx0_0 : ∀ i : grid0.Coords, EltTy.bits .f32 = 32 ∨ (Rect.block (s := S2x16384x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .f32 = 32 ∨ (Rect.block (s := S2x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf

abbrev win0_0 : Pipeline.Window sig grid0 :=
  Pipeline.Window.ofSpec (Memref.whole main_v1) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond2 i == 1#1) | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S32768x1024 : Shape := ⟨2, ![32768, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S32768 : Shape := ⟨1, ![32768]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .i32⟩
  | .hbm, ⟨7, _⟩ => ⟨S1024x1024, .i32⟩
  | .hbm, ⟨8, _⟩ => ⟨S_, .i32⟩
  | .hbm, ⟨9, _⟩ => ⟨S1024x1024, .i32⟩
  | .hbm, ⟨10, _⟩ => ⟨S1024x1024, .i32⟩
  | .hbm, ⟨11, _⟩ => ⟨S1024x1024, .i1⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S32768x1024, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024, .f32⟩
  | .hbm, ⟨31, _⟩ => ⟨S1024x1024, .i32⟩
  | .hbm, ⟨32, _⟩ => ⟨S1024x1024, .i32⟩
  | .hbm, ⟨33, _⟩ => ⟨S_, .i32⟩
  | .hbm, ⟨34, _⟩ => ⟨S1024x1024, .i32⟩
  | .hbm, ⟨35, _⟩ => ⟨S1024x1024, .i32⟩
  | .hbm, ⟨36, _⟩ => ⟨S1024x1024, .i1⟩
  | .hbm, ⟨37, _⟩ => ⟨S1024x1, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768, .f32⟩
  | .hbm, ⟨53, _⟩ => ⟨S32768, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_c : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_0 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_cst_13 : Ref sig .tc := ⟨.hbm, 66, rfl⟩
abbrev main_v38 : Ref sig .tc := ⟨.hbm, 67, rfl⟩

abbrev nD : Nat := 1
abbrev τ : Topo := Topo.v7x

variable {F : FTy → Type} [FloatOps F]

class Facts₀ : Prop where
  shapeCasts_S8x4096x1024_S32768x1024 : S8x4096x1024.ShapeCasts S32768x1024
  bcast_S_S1024x1024 : S_.BroadcastsInDim S1024x1024 (![] : Fin 0 → Fin S1024x1024.rank)
  reducesTo_S32768x1024_S1024_d0 : S32768x1024.ReducesTo [0] S1024
  h_S_ : 0 < S_.numel
  bcast_S_S1024 : S_.BroadcastsInDim S1024 (![] : Fin 0 → Fin S1024.rank)
  pads_S1024_S1024_000 : S1024.Pads (![0] : Fin 1 → Nat) ![0] ![0] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S32768x1024_S32768_d1 : S32768x1024.ReducesTo [1] S32768
  reducesTo_S32768_S_d0 : S32768.ReducesTo [0] S_
  bcast_S_S32768x1024 : S_.BroadcastsInDim S32768x1024 (![] : Fin 0 → Fin S32768x1024.rank)
  reducesTo_S32768x1024_S_d0_1 : S32768x1024.ReducesTo [0, 1] S_
  dot_S32768x1024_S32768x1024_S1024x1024_0_0_1_1_n_n_wf : DotDims.WF S32768x1024 S32768x1024 S1024x1024 [0] [0] [1] [1] [] []

variable [Facts₀]

def dot_S32768x1024_S32768x1024_S1024x1024_0_0_1_1_n_n : DotDims S32768x1024 S32768x1024 S1024x1024 where
  lhsContracting := [0]
  rhsContracting := [0]
  lhsNonContracting := [1]
  rhsNonContracting := [1]
  lhsBatch := []
  rhsBatch := []
  wf := dot_S32768x1024_S32768x1024_S1024x1024_0_0_1_1_n_n_wf

class Facts : Prop extends Facts₀ where

variable [Facts]
-- ==== Proof.KPieces.lean ====
/-
  What one run of the body leaves behind, buffer by buffer, as a pure function of what the buffers held.
  Three kinds of grid point: the first tile of a half (the four accumulators are zeroed, then the tile is
  added), a middle tile (the tile is added to what the accumulators held), the last tile of a half (the
  same, and then the three outputs are computed from the accumulators).  Each buffer is stored whole, so
  what it ends holding is the payload of its last store, with every load read back as the value loaded.
-/
import proofs.«164931_j41618233099088_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Cert.KernelIdeal Cert.KernelIdeal.Gen
namespace Cert.KernelIdeal.KPieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a half: the accumulators start from the stored zeros -/

theorem first_gram (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2048x1024 .f32) :
    sout0_A_0 c i arg2 harg2 arg3 harg3 arg4 harg4 arg5 harg5 arg6 harg6 arg7 harg7 arg8 harg8 arg9 harg9 hc0 hc1 x0 = k0_pay12 x0 k0_pay7 := by
  unfold sout0_A_0
  rw [View.read_writes_eq_canon _ _ _ (scover0_A_0 c i arg2 harg2 arg3 harg3 arg4 harg4 arg5 harg5 arg6 harg6 arg7 harg7 arg8 harg8 arg9 harg9 hc0 hc1 x0)]
  unfold kernelRun0_A
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem first_col (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2048x1024 .f32) :
    sout0_A_1 c i arg2 harg2 arg3 harg3 arg4 harg4 arg5 harg5 arg6 harg6 arg7 harg7 arg8 harg8 arg9 harg9 hc0 hc1 x0 = k0_pay14 x0 k0_pay8 := by
  unfold sout0_A_1
  rw [View.read_writes_eq_canon _ _ _ (scover0_A_1 c i arg2 harg2 arg3 harg3 arg4 harg4 arg5 harg5 arg6 harg6 arg7 harg7 arg8 harg8 arg9 harg9 hc0 hc1 x0)]
  unfold kernelRun0_A
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem first_corr (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2048x1024 .f32) :
    sout0_A_2 c i arg2 harg2 arg3 harg3 arg4 harg4 arg5 harg5 arg6 harg6 arg7 harg7 arg8 harg8 arg9 harg9 hc0 hc1 x0 = k0_pay1 k0_pay9 (k0_pay15 x0) := by
  unfold sout0_A_2
  rw [View.read_writes_eq_canon _ _ _ (scover0_A_2 c i arg2 harg2 arg3 harg3 arg4 harg4 arg5 harg5 arg6 harg6 arg7 harg7 arg8 harg8 arg9 harg9 hc0 hc1 x0)]
  unfold kernelRun0_A
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem first_whit (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1x2048x1024 .f32) :
    sout0_A_3 c i arg2 harg2 arg3 harg3 arg4 harg4 arg5 harg5 arg6 harg6 arg7 harg7 arg8 harg8 arg9 harg9 hc0 hc1 x0 = k0_pay2 (k0_pay13 x0) k0_pay10 := by
  unfold sout0_A_3
  rw [View.read_writes_eq_canon _ _ _ (scover0_A_3 c i arg2 harg2 arg3 harg3 arg4 harg4 arg5 harg5 arg6 harg6 arg7 harg7 arg8 harg8 arg9 harg9 hc0 hc1 x0)]
  unfold kernelRun0_A
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]

/-! ## A middle tile: the accumulators continue from what the point before left -/

theorem mid_gram (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2048x1024 .f32) (xs0 : Vec F S1024x1024 .f32) (xs1 : Vec F S1x1024 .f32) (xs2 : Vec F S1x1 .f32) (xs3 : Vec F S1x1 .f32) :
    sout0_B_0 c i arg2 harg2 arg3 harg3 arg4 harg4 arg5 harg5 arg6 harg6 arg7 harg7 arg8 harg8 arg9 harg9 hc0 hc1 x0 xs0 xs1 xs2 xs3 = k0_pay12 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem mid_col (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2048x1024 .f32) (xs0 : Vec F S1024x1024 .f32) (xs1 : Vec F S1x1024 .f32) (xs2 : Vec F S1x1 .f32) (xs3 : Vec F S1x1 .f32) :
    sout0_B_1 c i arg2 harg2 arg3 harg3 arg4 harg4 arg5 harg5 arg6 harg6 arg7 harg7 arg8 harg8 arg9 harg9 hc0 hc1 x0 xs0 xs1 xs2 xs3 = k0_pay14 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem mid_corr (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2048x1024 .f32) (xs0 : Vec F S1024x1024 .f32) (xs1 : Vec F S1x1024 .f32) (xs2 : Vec F S1x1 .f32) (xs3 : Vec F S1x1 .f32) :
    sout0_B_2 c i arg2 harg2 arg3 harg3 arg4 harg4 arg5 harg5 arg6 harg6 arg7 harg7 arg8 harg8 arg9 harg9 hc0 hc1 x0 xs0 xs1 xs2 xs3 = k0_pay1 xs2 (k0_pay15 x0) := by
  unfold sout0_B_2
  rw [View.read_writes_eq_canon _ _ _ (scover0_B_2 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem mid_whit (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1x2048x1024 .f32) (xs0 : Vec F S1024x1024 .f32) (xs1 : Vec F S1x1024 .f32) (xs2 : Vec F S1x1 .f32) (xs3 : Vec F S1x1 .f32) :
    sout0_B_3 c i arg2 harg2 arg3 harg3 arg4 harg4 arg5 harg5 arg6 harg6 arg7 harg7 arg8 harg8 arg9 harg9 hc0 hc1 x0 xs0 xs1 xs2 xs3 = k0_pay2 (k0_pay13 x0) xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 xs0 xs1 xs2 xs3)]
  unfold kernelRun0_B
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]

/-! ## The last tile of a half: the accumulators as in a middle tile, and the three outputs from them -/

theorem last_gram (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x1024 .f32) (xs0 : Vec F S1024x1024 .f32) (xs1 : Vec F S1x1024 .f32) (xs2 : Vec F S1x1 .f32) (xs3 : Vec F S1x1 .f32) :
    sout0_C_0 c i arg2 harg2 arg3 harg3 arg4 harg4 arg5 harg5 arg6 harg6 arg7 harg7 arg8 harg8 arg9 harg9 hc0 hc1 x0 xs0 xs1 xs2 xs3 = k0_pay12 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem last_col (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x1024 .f32) (xs0 : Vec F S1024x1024 .f32) (xs1 : Vec F S1x1024 .f32) (xs2 : Vec F S1x1 .f32) (xs3 : Vec F S1x1 .f32) :
    sout0_C_1 c i arg2 harg2 arg3 harg3 arg4 harg4 arg5 harg5 arg6 harg6 arg7 harg7 arg8 harg8 arg9 harg9 hc0 hc1 x0 xs0 xs1 xs2 xs3 = k0_pay14 x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem last_corr (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x1024 .f32) (xs0 : Vec F S1024x1024 .f32) (xs1 : Vec F S1x1024 .f32) (xs2 : Vec F S1x1 .f32) (xs3 : Vec F S1x1 .f32) :
    sout0_C_2 c i arg2 harg2 arg3 harg3 arg4 harg4 arg5 harg5 arg6 harg6 arg7 harg7 arg8 harg8 arg9 harg9 hc0 hc1 x0 xs0 xs1 xs2 xs3 = k0_pay1 xs2 (k0_pay15 x0) := by
  unfold sout0_C_2
  rw [View.read_writes_eq_canon _ _ _ (scover0_C_2 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem last_whit (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x1024 .f32) (xs0 : Vec F S1024x1024 .f32) (xs1 : Vec F S1x1024 .f32) (xs2 : Vec F S1x1 .f32) (xs3 : Vec F S1x1 .f32) :
    sout0_C_3 c i arg2 harg2 arg3 harg3 arg4 harg4 arg5 harg5 arg6 harg6 arg7 harg7 arg8 harg8 arg9 harg9 hc0 hc1 x0 xs0 xs1 xs2 xs3 = k0_pay2 (k0_pay13 x0) xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem last_out_grad (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x1024 .f32) (xs0 : Vec F S1024x1024 .f32) (xs1 : Vec F S1x1024 .f32) (xs2 : Vec F S1x1 .f32) (xs3 : Vec F S1x1 .f32) :
    out0_C_1 c i arg2 harg2 arg3 harg3 arg4 harg4 arg5 harg5 arg6 harg6 arg7 harg7 arg8 harg8 arg9 harg9 hc0 hc1 x0 xs0 xs1 xs2 xs3 = k0_pay4 (k0_pay12 x0 xs0) (k0_pay14 x0 xs1) := by
  unfold out0_C_1
  rw [View.read_writes_eq_canon _ _ _ (cover0_C_1 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem last_out_corr (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x1024 .f32) (xs0 : Vec F S1024x1024 .f32) (xs1 : Vec F S1x1024 .f32) (xs2 : Vec F S1x1 .f32) (xs3 : Vec F S1x1 .f32) :
    out0_C_2 c i arg2 harg2 arg3 harg3 arg4 harg4 arg5 harg5 arg6 harg6 arg7 harg7 arg8 harg8 arg9 harg9 hc0 hc1 x0 xs0 xs1 xs2 xs3 = k0_pay5 (k0_pay1 xs2 (k0_pay15 x0)) := by
  unfold out0_C_2
  rw [View.read_writes_eq_canon _ _ _ (cover0_C_2 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]
theorem last_out_whit (c : Dev nD) (i : grid0.Coords) (arg2 : Memref sig .tc .vmem S1x2048x1024 .f32) (harg2 : arg2.IsWhole) (arg3 : Memref sig .tc .vmem S1x1024x1024 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1x2048x1024 .f32) (xs0 : Vec F S1024x1024 .f32) (xs1 : Vec F S1x1024 .f32) (xs2 : Vec F S1x1 .f32) (xs3 : Vec F S1x1 .f32) :
    out0_C_3 c i arg2 harg2 arg3 harg3 arg4 harg4 arg5 harg5 arg6 harg6 arg7 harg7 arg8 harg8 arg9 harg9 hc0 hc1 x0 xs0 xs1 xs2 xs3 = k0_pay3 (k0_pay6 (k0_pay2 (k0_pay13 x0) xs3)) := by
  unfold out0_C_3
  rw [View.read_writes_eq_canon _ _ _ (cover0_C_3 c i arg2 harg2 arg3 harg3 arg4 harg4 arg5 harg5 arg6 harg6 arg7 harg7 arg8 harg8 arg9 harg9 hc0 hc1 x0 xs0 xs1 xs2 xs3)]
  unfold kernelRun0_C
  dsimp only
  sl_unfold_words
  simp only [View.canon_unit_zero (S := S1024x1024) hz2,
    View.canon_cons_unit_zero (S := S1024x1024) hz2,
    View.readCov_unit_zero (S := S1024x1024) _ hz2,
    View.ld_unit_zero (S := S1024x1024) hz2,
    View.canon_unit_zero (S := S1x1024) hz2,
    View.canon_cons_unit_zero (S := S1x1024) hz2,
    View.readCov_unit_zero (S := S1x1024) _ hz2,
    View.ld_unit_zero (S := S1x1024) hz2,
    View.canon_unit_zero (S := S1x1) hz2,
    View.canon_cons_unit_zero (S := S1x1) hz2,
    View.readCov_unit_zero (S := S1x1) _ hz2,
    View.ld_unit_zero (S := S1x1) hz2,
    View.canon_unit_zero (S := S1x2048x1024) hz3,
    View.canon_cons_unit_zero (S := S1x2048x1024) hz3,
    View.readCov_unit_zero (S := S1x2048x1024) _ hz3,
    View.ld_unit_zero (S := S1x2048x1024) hz3,
    View.canon_unit_zero (S := S1x1024x1024) hz3,
    View.canon_cons_unit_zero (S := S1x1024x1024) hz3,
    View.readCov_unit_zero (S := S1x1024x1024) _ hz3,
    View.ld_unit_zero (S := S1x1024x1024) hz3,
    View.canon_unit_zero (S := S1x1x1) hz3,
    View.canon_cons_unit_zero (S := S1x1x1) hz3,
    View.readCov_unit_zero (S := S1x1x1) _ hz3,
    View.ld_unit_zero (S := S1x1x1) hz3,
    View.readAt_eq_ld, harg2.read_unread, harg6.read_unread, harg7.read_unread, harg8.read_unread, harg9.read_unread]

end Cert.KernelIdeal.KPieces

end
-- ==== Proof.KOuts.lean ====
/-
  The seven buffers after each grid point, as payloads of the point's tile and of what the point before
  left: the four accumulators always, the three outputs at the last tile of a half.
-/
import proofs.«164931_j41618233099088_2_alg».proof.Proof.Gen.KernelIdeal.Frame
import proofs.«164931_j41618233099088_2_alg».proof.Proof.KPieces

noncomputable section

open Idealize.ShloMosaic Idealize.ShloMosaic.TcCoe Idealize.SL.Sem
open Idealize.ShloMosaic.Pipeline (Dat)
open Cert.KernelIdeal Cert.KernelIdeal.Gen
namespace Cert.KernelIdeal.KOuts

variable {F : FTy → Type} [FloatOps F]
variable (m : (ℓ : Loc nD τ sig) → Buf (Elt F) ℓ) (c : Dev nD)

/-- After the first tile of a half: the accumulators are the tile's sums added to zero. -/
theorem after_first (t : Fin cfg0.N) (h0 : t.val % 8 = 0) (h1 : ¬t.val % 8 = 7) :
    (outsAt0 m c t.val t.isLt).2.2.2.1 = k0_pay12 (iblk m c 0 t) k0_pay7
    ∧ (outsAt0 m c t.val t.isLt).2.2.2.2.1 = k0_pay14 (iblk m c 0 t) k0_pay8
    ∧ (outsAt0 m c t.val t.isLt).2.2.2.2.2.1 = k0_pay1 k0_pay9 (k0_pay15 (iblk m c 0 t))
    ∧ (outsAt0 m c t.val t.isLt).2.2.2.2.2.2 = k0_pay2 (k0_pay13 (iblk m c 0 t)) k0_pay10 := by
  rw [outsAt0_A m c t h0 h1]
  dsimp only
  exact ⟨KPieces.first_gram c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    KPieces.first_col c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    KPieces.first_corr c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t),
    KPieces.first_whit c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t)⟩

/-- After a middle tile: the accumulators are the tile's sums added to what the point before left. -/
theorem after_mid (t : Fin cfg0.N) (h0 : ¬t.val % 8 = 0) (h1 : ¬t.val % 8 = 7) :
    (outsAt0 m c t.val t.isLt).2.2.2.1 = k0_pay12 (iblk m c 0 t) (outsAt0 m c (t.val - 1) (Nat.lt_of_le_of_lt (Nat.sub_le _ _) t.isLt)).2.2.2.1
    ∧ (outsAt0 m c t.val t.isLt).2.2.2.2.1 = k0_pay14 (iblk m c 0 t) (outsAt0 m c (t.val - 1) (Nat.lt_of_le_of_lt (Nat.sub_le _ _) t.isLt)).2.2.2.2.1
    ∧ (outsAt0 m c t.val t.isLt).2.2.2.2.2.1 = k0_pay1 (outsAt0 m c (t.val - 1) (Nat.lt_of_le_of_lt (Nat.sub_le _ _) t.isLt)).2.2.2.2.2.1 (k0_pay15 (iblk m c 0 t))
    ∧ (outsAt0 m c t.val t.isLt).2.2.2.2.2.2 = k0_pay2 (k0_pay13 (iblk m c 0 t)) (outsAt0 m c (t.val - 1) (Nat.lt_of_le_of_lt (Nat.sub_le _ _) t.isLt)).2.2.2.2.2.2 := by
  rw [outsAt0_B m c t h0 h1]
  dsimp only
  exact ⟨KPieces.mid_gram c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.mid_col c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.mid_corr c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.mid_whit c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

/-- After the last tile of a half: the accumulators as after a middle tile, and the three outputs computed
    from them. -/
theorem after_last (t : Fin cfg0.N) (h0 : ¬t.val % 8 = 0) (h1 : t.val % 8 = 7) :
    (outsAt0 m c t.val t.isLt).2.2.2.1 = k0_pay12 (iblk m c 0 t) (outsAt0 m c (t.val - 1) (Nat.lt_of_le_of_lt (Nat.sub_le _ _) t.isLt)).2.2.2.1
    ∧ (outsAt0 m c t.val t.isLt).2.2.2.2.1 = k0_pay14 (iblk m c 0 t) (outsAt0 m c (t.val - 1) (Nat.lt_of_le_of_lt (Nat.sub_le _ _) t.isLt)).2.2.2.2.1
    ∧ (outsAt0 m c t.val t.isLt).2.2.2.2.2.1 = k0_pay1 (outsAt0 m c (t.val - 1) (Nat.lt_of_le_of_lt (Nat.sub_le _ _) t.isLt)).2.2.2.2.2.1 (k0_pay15 (iblk m c 0 t))
    ∧ (outsAt0 m c t.val t.isLt).2.2.2.2.2.2 = k0_pay2 (k0_pay13 (iblk m c 0 t)) (outsAt0 m c (t.val - 1) (Nat.lt_of_le_of_lt (Nat.sub_le _ _) t.isLt)).2.2.2.2.2.2
    ∧ (outsAt0 m c t.val t.isLt).1 = k0_pay4 (k0_pay12 (iblk m c 0 t) (outsAt0 m c (t.val - 1) (Nat.lt_of_le_of_lt (Nat.sub_le _ _) t.isLt)).2.2.2.1) (k0_pay14 (iblk m c 0 t) (outsAt0 m c (t.val - 1) (Nat.lt_of_le_of_lt (Nat.sub_le _ _) t.isLt)).2.2.2.2.1)
    ∧ (outsAt0 m c t.val t.isLt).2.1 = k0_pay5 (k0_pay1 (outsAt0 m c (t.val - 1) (Nat.lt_of_le_of_lt (Nat.sub_le _ _) t.isLt)).2.2.2.2.2.1 (k0_pay15 (iblk m c 0 t)))
    ∧ (outsAt0 m c t.val t.isLt).2.2.1 = k0_pay3 (k0_pay6 (k0_pay2 (k0_pay13 (iblk m c 0 t)) (outsAt0 m c (t.val - 1) (Nat.lt_of_le_of_lt (Nat.sub_le _ _) t.isLt)).2.2.2.2.2.2)) := by
  rw [outsAt0_C m c t h0 h1]
  dsimp only
  exact ⟨KPieces.last_gram c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.last_col c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.last_corr c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.last_whit c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.last_out_grad c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.last_out_corr c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2,
    KPieces.last_out_whit c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2⟩

end Cert.KernelIdeal.KOuts

end
-- ==== Proof.KInput.lean ====
/-
  The rows the body reads.  The argument, flattened to 32768 rows of 1024, is split into two halves of
  16384 rows; grid point `t` (half `t / 8`, tile `t % 8`) is handed the 2048 rows starting at row
  `(t / 8) * 16384 + (t % 8) * 2048` of the flattened argument.
-/
import proofs.«164931_j41618233099088_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Cert.KernelIdeal Cert.KernelIdeal.Gen Idealize.ShloMosaic.ValueIdx
namespace Cert.KernelIdeal.KInput

variable {F : FTy → Type} [FloatOps F]
variable (m : (ℓ : Loc nD τ sig) → Buf (Elt F) ℓ)

/-- The argument flattened to rows. -/
def flat (c : Dev nD) : S32768x1024.Idx → Elt F .f32 :=
  shapeCast S32768x1024 (m ((c : Thread nD τ).loc main_arg0)) Facts₀.shapeCasts_S8x4096x1024_S32768x1024

/-- The array the region is launched on is the flattened argument cut into two halves. -/
theorem V_v1 (c : Dev nD) : (V m c main_v1 : S2x16384x1024.Idx → Elt F .f32)
    = shapeCast S2x16384x1024 (flat m c) Facts₀.shapeCasts_S32768x1024_S2x16384x1024 := by
  show StableHlo.after hostOps0 (fun b => m (c, b)) (Proc.devRef .tc main_v1) = _
  after_results
  rfl

/-- Row `q` of half `h` is row `h * 16384 + q` of the flattened argument. -/
theorem V_v1_apply (c : Dev nD) (h : Fin 2) (q : Fin 16384) (j : Fin 1024) (hq : h.val * 16384 + q.val < 32768) :
    (V m c main_v1 : S2x16384x1024.Idx → Elt F .f32) (ix3 h q j) = flat m c (ix2 ⟨h.val * 16384 + q.val, hq⟩ j) := by
  rw [V_v1]
  refine shapeCast_apply _ _ _ _ ?_
  rw [Shape.rowMajor_val_two, Shape.rowMajor_val_three]
  show (h.val * 16384 + q.val) * 1024 + j.val = (h.val * 16384 + q.val) * 1024 + j.val
  rfl

/-- Which block of the launched array a grid point reads: half `t / 8`, tile `t % 8`, all columns. -/
theorem block_of_point : ∀ t : Fin cfg0.N,
    win0_0.index t (0 : Fin 3) = t.val / 8 ∧ win0_0.index t (1 : Fin 3) = t.val % 8 ∧ win0_0.index t (2 : Fin 3) = 0 :=
  (by decide +kernel : ∀ t : Fin grid0.N, _)

/-- Row `p` of the block at point `t` is row `(t / 8) * 16384 + (t % 8) * 2048 + p` of the flattened argument. -/
theorem iblk_apply (c : Dev nD) (t : Fin cfg0.N) (p : Fin 2048) (j : Fin 1024)
    (hr : (t.val / 8) * 16384 + (t.val % 8) * 2048 + p.val < 32768) :
    (iblk m c 0 t : Vec F S1x2048x1024 .f32) (ix3 (0 : Fin 1) p j)
      = flat m c (ix2 ⟨(t.val / 8) * 16384 + (t.val % 8) * 2048 + p.val, hr⟩ j) := by
  have hN : t.val < 16 := lt_of_lt_of_eq t.isLt (show cfg0.N = 16 from N_0)
  have hh : t.val / 8 < 2 := by omega
  have hq : (t.val % 8) * 2048 + p.val < 16384 := by have := p.isLt; omega
  have hlt : t.val / 8 * 16384 + ((t.val % 8) * 2048 + p.val) < 32768 := lt_of_eq_of_lt (Nat.add_assoc _ _ _).symm hr
  have hrow : (⟨t.val / 8 * 16384 + ((t.val % 8) * 2048 + p.val), hlt⟩ : Fin 32768)
      = ⟨(t.val / 8) * 16384 + (t.val % 8) * 2048 + p.val, hr⟩ := Fin.ext (Nat.add_assoc _ _ _).symm
  refine Eq.trans ?_ ((V_v1_apply m c ⟨t.val / 8, hh⟩ ⟨(t.val % 8) * 2048 + p.val, hq⟩ j hlt).trans
    (congrArg (fun r => flat m c (ix2 r j)) hrow))
  unfold iblk
  rw [View.read_apply]
  show V m c main_v1 (((cfg0.win 0).blk t).view.emb (ix3 (0 : Fin 1) p j)) = V m c main_v1 _
  refine congrArg (V m c main_v1) (funext fun a => Fin.ext ?_)
  obtain ⟨h0, h1, h2⟩ := block_of_point t
  match a with
  | ⟨0, _⟩ => show win0_0.index t 0 * 1 + 1 * 0 = t.val / 8; rw [h0]; omega
  | ⟨1, _⟩ => show win0_0.index t 1 * 2048 + 1 * p.val = (t.val % 8) * 2048 + p.val; rw [h1]; omega
  | ⟨2, _⟩ => show win0_0.index t 2 * 1024 + 1 * j.val = j.val; rw [h2]; omega

end Cert.KernelIdeal.KInput

end
-- ==== Proof.Spec.lean ====
/-
  The mathematics both programs compute, over the real numbers.  The input is read as a matrix
  `R` of 32768 rows (samples) and 1024 columns (features).  Three results:

  * `grad R i j`: half the mean outer product `(1/M) Σ_m R m i · R m j` off the diagonal, and on the
    diagonal half of `(1/M) Σ_m (R m i)² − 1`;
  * `corr R`: the mean over the samples of `(Σ_j x_j²)² − Σ_j x_j⁴`, divided by 1024²;
  * `whit R`: the mean over all entries of `(x² − 1)²`.

  `Rn` extends the rows to all natural numbers (zero rows past the last), so that a row can be
  named by arithmetic `c * 16384 + k * 2048 + p` without a bound proof.
-/
import Idealize.ShloMosaic.PureOps.Ideal
import Idealize.ShloMosaic.Lib.ValueIdx

noncomputable section

open scoped BigOperators

namespace Cert.Decorr

open Idealize.ShloMosaic Idealize.ShloMosaic.ValueIdx

/-- The Gram sum of two columns: `Σ_m R m i · R m j`. -/
def gram (R : Fin 32768 → Fin 1024 → ℝ) (i j : Fin 1024) : ℝ := ∑ m, R m i * R m j

/-- The first result at `(i, j)`. -/
def grad (R : Fin 32768 → Fin 1024 → ℝ) (i j : Fin 1024) : ℝ :=
  (1 / 2) * (gram R i j / 32768 * (1 - (if i = j then 1 else 0)))
    + (1 / 2) * (if i = j then gram R i i / 32768 - 1 else 0)

/-- One sample's contribution to the second result: `(Σ_j x_j²)² − Σ_j x_j⁴`. -/
def corrRow (r : Fin 1024 → ℝ) : ℝ :=
  (∑ j, r j * r j) * (∑ j, r j * r j) - ∑ j, (r j * r j) * (r j * r j)

/-- The second result. -/
def corr (R : Fin 32768 → Fin 1024 → ℝ) : ℝ := (∑ m, corrRow (R m)) / 32768 / 1048576

/-- One sample's contribution to the third result: `Σ_j (x_j² − 1)²`. -/
def whitRow (r : Fin 1024 → ℝ) : ℝ := ∑ j, (r j * r j - 1) * (r j * r j - 1)

/-- The third result. -/
def whit (R : Fin 32768 → Fin 1024 → ℝ) : ℝ := (∑ m, whitRow (R m)) / 33554432

/-- The rows named by a natural number; zero past the last row. -/
def Rn (R : Fin 32768 → Fin 1024 → ℝ) (n : ℕ) : Fin 1024 → ℝ :=
  if h : n < 32768 then R ⟨n, h⟩ else fun _ => 0

theorem Rn_val (R : Fin 32768 → Fin 1024 → ℝ) (m : Fin 32768) : Rn R m.val = R m := by
  unfold Rn; rw [dif_pos m.isLt]

/-! ## The same numbers, summed the way the tiled computation meets them

The 32768 rows are two halves of 16384; each half is eight tiles of 2048 rows.  Row `p` of tile `k` of
half `c` is row `c * 16384 + k * 2048 + p`. -/

/-- Row `p` of tile `k` of half `c`. -/
def tileRow (R : Fin 32768 → Fin 1024 → ℝ) (c k : ℕ) (p : Fin 2048) : Fin 1024 → ℝ :=
  Rn R (c * 16384 + k * 2048 + p.val)

/-- One tile's Gram sum of two columns. -/
def tileGram (R : Fin 32768 → Fin 1024 → ℝ) (c k : ℕ) (i j : Fin 1024) : ℝ :=
  ∑ p : Fin 2048, tileRow R c k p i * tileRow R c k p j

/-- One tile's sum of squares of a column. -/
def tileCol (R : Fin 32768 → Fin 1024 → ℝ) (c k : ℕ) (j : Fin 1024) : ℝ :=
  ∑ p : Fin 2048, tileRow R c k p j * tileRow R c k p j

/-- One tile's sum of the per-sample terms of the second result. -/
def tileCorr (R : Fin 32768 → Fin 1024 → ℝ) (c k : ℕ) : ℝ := ∑ p : Fin 2048, corrRow (tileRow R c k p)

/-- One tile's sum of the per-sample terms of the third result. -/
def tileWhit (R : Fin 32768 → Fin 1024 → ℝ) (c k : ℕ) : ℝ := ∑ p : Fin 2048, whitRow (tileRow R c k p)

/-- The four running sums of half `c` after its first `n` tiles. -/
def accGram (R : Fin 32768 → Fin 1024 → ℝ) (c n : ℕ) (i j : Fin 1024) : ℝ :=
  ∑ k ∈ Finset.range n, tileGram R c k i j
def accCol (R : Fin 32768 → Fin 1024 → ℝ) (c n : ℕ) (j : Fin 1024) : ℝ :=
  ∑ k ∈ Finset.range n, tileCol R c k j
def accCorr (R : Fin 32768 → Fin 1024 → ℝ) (c n : ℕ) : ℝ := ∑ k ∈ Finset.range n, tileCorr R c k
def accWhit (R : Fin 32768 → Fin 1024 → ℝ) (c n : ℕ) : ℝ := ∑ k ∈ Finset.range n, tileWhit R c k

/-- What half `c` contributes to each result once its eight tiles are summed. -/
def gradPart (R : Fin 32768 → Fin 1024 → ℝ) (c : ℕ) (i j : Fin 1024) : ℝ :=
  (1 / 2) * (accGram R c 8 i j / 32768 * (1 - (if i = j then 1 else 0)))
    + (1 / 2) * ((if i = j then 1 else 0) * (accCol R c 8 j / 32768))
def corrPart (R : Fin 32768 → Fin 1024 → ℝ) (c : ℕ) : ℝ := accCorr R c 8 / 34359738368
def whitPart (R : Fin 32768 → Fin 1024 → ℝ) (c : ℕ) : ℝ := accWhit R c 8 / 33554432

/-- The three results as arrays of extended reals. -/
def Ggrad (R : Fin 32768 → Fin 1024 → ℝ) : FVec Ideal ⟨2, ![1024, 1024]⟩ .f32 :=
  fun i => ((grad R (i 0) (i 1) : ℝ) : EReal)
def Gcorr (R : Fin 32768 → Fin 1024 → ℝ) : FVec Ideal ⟨0, ![]⟩ .f32 := fun _ => ((corr R : ℝ) : EReal)
def Gwhit (R : Fin 32768 → Fin 1024 → ℝ) : FVec Ideal ⟨0, ![]⟩ .f32 := fun _ => ((whit R : ℝ) : EReal)

theorem Ggrad_ix2 (R : Fin 32768 → Fin 1024 → ℝ) (i j : Fin 1024) :
    Ggrad R (ix2 i j) = ((grad R i j : ℝ) : EReal) := rfl

end Cert.Decorr

end
-- ==== Proof.PayBase.lean ====
/-
  Small facts shared by the payload lemmas: a finite sum of reals inside the extended reals, the
  float constants the kernel spells, and the tile read as a 2048 × 1024 matrix.
-/
import proofs.«164931_j41618233099088_2_alg».proof.Proof.Gen.KernelIdeal.Skeleton
import proofs.«164931_j41618233099088_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Decorr

/-- A finite sum of coerced reals is the coercion of the sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The pattern of `0.0` denotes `0`. -/
theorem ofBits_zero : Ideal.ofBits .f32 0x00000000#32 = ((0 : ℝ) : EReal) := by
  rw [Ideal.ofBits_zero_f32, EReal.coe_zero]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `0.5` denotes `1/2`. -/
theorem ofBits_half : Ideal.ofBits .f32 0x3F000000#32 = ((1 / 2 : ℝ) : EReal) := by
  simp [Ideal.ofBits, Ideal.ieee, -EReal.coe_mul]; norm_num

/-- The pattern of `32768.0` denotes `32768`. -/
theorem ofBits_32768 : Ideal.ofBits .f32 0x47000000#32 = ((32768 : ℝ) : EReal) := by
  simp [Ideal.ofBits, Ideal.ieee, -EReal.coe_mul]; norm_num

/-- The pattern `0x4C000000` denotes `2^25 = 33554432`. -/
theorem ofBits_33554432 : Ideal.ofBits .f32 0x4C000000#32 = ((33554432 : ℝ) : EReal) := by
  simp [Ideal.ofBits, Ideal.ieee, -EReal.coe_mul]; norm_num

/-- The pattern `0x51000000` denotes `2^35 = 34359738368`. -/
theorem ofBits_34359738368 : Ideal.ofBits .f32 0x51000000#32 = ((34359738368 : ℝ) : EReal) := by
  simp [Ideal.ofBits, Ideal.ieee, -EReal.coe_mul]; norm_num

/-- Division of a real by a nonzero real, inside the extended reals. -/
theorem div_real (x y : ℝ) (h : y ≠ 0) : Ideal.div ((x : ℝ) : EReal) ((y : ℝ) : EReal) = ((x / y : ℝ) : EReal) := by
  rw [Ideal.div_coe h, ← EReal.coe_mul]; congr 1; ring

/-- The tile with its leading unit axis dropped reads `(0, p, j)` at `(p, j)`. -/
theorem pay11_apply (v3 : Vec Ideal S1x2048x1024 .f32) (p : Fin 2048) (j : Fin 1024) :
    k0_pay11 (F := Ideal) v3 (ix2 p j) = v3 (ix3 (0 : Fin 1) p j) := by
  unfold k0_pay11
  exact shapeCast_1ab_ab_apply v3 _ p j

/-- So over a tile of reals it reads the real entry. -/
theorem pay11_real (v3 : Vec Ideal S1x2048x1024 .f32) (T : Fin 2048 → Fin 1024 → ℝ)
    (h3 : ∀ p j, v3 (ix3 (0 : Fin 1) p j) = ((T p j : ℝ) : EReal)) (p : Fin 2048) (j : Fin 1024) :
    k0_pay11 (F := Ideal) v3 (ix2 p j) = ((T p j : ℝ) : EReal) := by
  rw [pay11_apply, h3]

/-- The tile's entrywise squares. -/
theorem pay13_real (v3 : Vec Ideal S1x2048x1024 .f32) (T : Fin 2048 → Fin 1024 → ℝ)
    (h3 : ∀ p j, v3 (ix3 (0 : Fin 1) p j) = ((T p j : ℝ) : EReal)) (p : Fin 2048) (j : Fin 1024) :
    k0_pay13 (F := Ideal) v3 (ix2 p j) = ((T p j * T p j : ℝ) : EReal) := by
  unfold k0_pay13
  rw [mulf_apply, pay11_real v3 T h3, EReal.coe_mul]

end Cert.KernelIdeal.Pay

end
-- ==== Proof.PayReduce.lean ====
/-
  The kernel's reductions read as finite sums over literal coordinates: a 2048 × 1024 matrix summed over its
  rows or over its columns, a row of 2048 numbers summed, and a 1 × 2048 × 1024 array summed over all its
  entries; and the one entry of a 1 × 1 or 1 × 1 × 1 array.
-/
import proofs.«164931_j41618233099088_2_alg».proof.Proof.PayBase

noncomputable section

open scoped BigOperators

namespace Cert.KernelIdeal.Pay

open Cert.KernelIdeal Cert.KernelIdeal.Gen Idealize.ShloMosaic Idealize.ShloMosaic.ValueIdx Cert.Decorr

/-- Summing a 2048 × 1024 matrix over its rows: at column `j`, `Σ_p x_{p,j}`. -/
theorem sum_rows_apply (x : FVec Ideal S2048x1024 .f32) (h : S2048x1024.Reduces [0] S1024)
    (hφ : FKind.Formats .f32) (hacc : (0x00000000#32 : BitVec 32) = FKind.add.neutral .f32 hφ) (j : Fin 1024) :
    multiReduction .add [0] S1024 x 0x00000000#32 h hφ hacc (ix1 j) = ∑ p : Fin 2048, x (ix2 p j) := by
  refine (Ideal.multiReduction_add_single x _ h hφ hacc (ix1 j)).trans ?_
  refine Finset.sum_congr rfl fun p _ => congrArg x ?_
  funext c; apply Fin.ext
  match c with
  | ⟨0, _⟩ => rfl
  | ⟨1, _⟩ => rfl

/-- Summing a 2048 × 1024 matrix over its columns: at row `p`, `Σ_j x_{p,j}`. -/
theorem sum_cols_apply (x : FVec Ideal S2048x1024 .f32) (h : S2048x1024.Reduces [1] S2048)
    (hφ : FKind.Formats .f32) (hacc : (0x00000000#32 : BitVec 32) = FKind.add.neutral .f32 hφ) (p : Fin 2048) :
    multiReduction .add [1] S2048 x 0x00000000#32 h hφ hacc (ix1 p) = ∑ j : Fin 1024, x (ix2 p j) := by
  refine (Ideal.multiReduction_add_single x _ h hφ hacc (ix1 p)).trans ?_
  refine Finset.sum_congr rfl fun j _ => congrArg x ?_
  funext c; apply Fin.ext
  match c with
  | ⟨0, _⟩ => rfl
  | ⟨1, _⟩ => rfl

/-- Summing a 1 × 2048 row: `Σ_p x_{0,p}`. -/
theorem sum_row_apply (x : FVec Ideal S1x2048 .f32) (h : S1x2048.Reduces [1] S1)
    (hφ : FKind.Formats .f32) (hacc : (0x00000000#32 : BitVec 32) = FKind.add.neutral .f32 hφ) (u : Fin 1) :
    multiReduction .add [1] S1 x 0x00000000#32 h hφ hacc (ix1 u) = ∑ p : Fin 2048, x (ix2 (0 : Fin 1) p) := by
  refine (Ideal.multiReduction_add_single x _ h hφ hacc (ix1 u)).trans ?_
  refine Finset.sum_congr rfl fun p _ => congrArg x ?_
  funext c; apply Fin.ext
  match c with
  | ⟨0, _⟩ => show u.val = 0; omega
  | ⟨1, _⟩ => rfl

/-- The indices of a 1 × 2048 × 1024 array are the pairs (row, column). -/
def idxEquiv3 : S1x2048x1024.Idx ≃ Fin 2048 × Fin 1024 where
  toFun i := (i 1, i 2)
  invFun q := ix3 (0 : Fin 1) q.1 q.2
  left_inv i := by
    funext c
    match c with
    | ⟨0, _⟩ => exact Subsingleton.elim (α := Fin 1) _ _
    | ⟨1, _⟩ => rfl
    | ⟨2, _⟩ => rfl
  right_inv _ := rfl

/-- Summing a 1 × 2048 × 1024 array over its last two axes: the double sum `Σ_p Σ_j x_{0,p,j}`. -/
theorem sum_all_apply (x : FVec Ideal S1x2048x1024 .f32) (h : S1x2048x1024.Reduces [1, 2] S1)
    (hφ : FKind.Formats .f32) (hacc : (0x00000000#32 : BitVec 32) = FKind.add.neutral .f32 hφ) (k : S1.Idx) :
    multiReduction .add [1, 2] S1 x 0x00000000#32 h hφ hacc k
      = ∑ p : Fin 2048, ∑ j : Fin 1024, x (ix3 (0 : Fin 1) p j) := by
  refine (Ideal.multiReduction_add_total x _ h (fun b => by match b with | ⟨0, _⟩ => rfl) hφ hacc k).trans ?_
  rw [← Equiv.sum_comp idxEquiv3.symm (fun i => x i), Fintype.sum_prod_type]
  rfl

/-- The one entry of a 1 × 1 array. -/
theorem extractAt_1x1 {α : Type} (x : S1x1.Idx → α) (h : ∀ a, (![0, 0] : Fin 2 → Nat) a < S1x1.size a) :
    extractAt ![0, 0] x h = x (ix2 (0 : Fin 1) (0 : Fin 1)) := by
  unfold extractAt
  congr 1
  funext a
  match a with
  | ⟨0, _⟩ => rfl
  | ⟨1, _⟩ => rfl

/-- The one entry of a 1 × 1 × 1 array. -/
theorem extractAt_1x1x1 {α : Type} (x : S1x1x1.Idx → α) (h : ∀ a, (![0, 0, 0] : Fin 3 → Nat) a < S1x1x1.size a) :
    extractAt ![0, 0, 0] x h = x (ix3 (0 : Fin 1) (0 : Fin 1) (0 : Fin 1)) := by
  unfold extractAt
  congr 1
  funext a
  match a with
  | ⟨0, _⟩ => rfl
  | ⟨1, _⟩ => rfl
  | ⟨2, _⟩ => rfl

end Cert.KernelIdeal.Pay

end
-- ==== Proof.Pay12.lean ====
/-
  The tile's Gram matrix.  The kernel splits the tile `x` into a high part `x` (a bf16 truncation is the
  identity on extended reals) and a low part `x − x`, and adds three products `xᵀx + xᵀ(x−x) + (x−x)ᵀx`,
  each contracted over the 2048 rows.  On real entries the low part is zero, so the three products add up to
  `Σ_p x_{p,i} · x_{p,j}`, which is added to the running sum.
-/
import proofs.«164931_j41618233099088_2_alg».proof.Proof.PayBase

noncomputable section

open scoped BigOperators

namespace Cert.KernelIdeal.Pay

open Cert.KernelIdeal Cert.KernelIdeal.Gen Idealize.ShloMosaic Idealize.ShloMosaic.ValueIdx Cert.Decorr

/-- The product of two 2048 × 1024 matrices contracted over their rows, into a zero accumulator, at
    `(i, j)`: the sum over the rows `p` of `x_{p,i} · y_{p,j}`. -/
theorem matmul_rows_apply {φ₁ φ₂ : FTy} (x : FVec Ideal S2048x1024 φ₁) (y : FVec Ideal S2048x1024 φ₂)
    (i j : Fin 1024) :
    matmul dot_S2048x1024_S2048x1024_S1024x1024_0_0_1_1_n_n none x y
        (constant (F := Ideal) S1024x1024 .f32 0x00000000#32) (ix2 i j)
      = ∑ p : Fin 2048, x (ix2 p i) * y (ix2 p j) := by
  show FloatOps.matmul _ none x y _ (ix2 i j) = _
  rw [Ideal.matmul_constant_zero_apply,
    ← Equiv.sum_comp (contrEquiv1 dot_S2048x1024_S2048x1024_S1024x1024_0_0_1_1_n_n 2048 rfl rfl).symm]
  refine Finset.sum_congr rfl fun c _ => ?_
  have c2 := contrEquiv1_symm_val dot_S2048x1024_S2048x1024_S1024x1024_0_0_1_1_n_n 2048 rfl rfl c
  have l2 : dot_S2048x1024_S2048x1024_S1024x1024_0_0_1_1_n_n.lhsIdx (ix2 i j)
      ((contrEquiv1 _ 2048 rfl rfl).symm c) = ix2 c i := by
    funext ax; apply Fin.ext
    match ax with
    | ⟨0, _⟩ =>
      exact (DotDims.lhsIdx_val_of_single _ (cl := (0 : Fin 2)) rfl _ _).trans c2
    | ⟨1, _⟩ => simp [DotDims.lhsIdx, dot_S2048x1024_S2048x1024_S1024x1024_0_0_1_1_n_n]; rfl
  have r2 : dot_S2048x1024_S2048x1024_S1024x1024_0_0_1_1_n_n.rhsIdx (ix2 i j)
      ((contrEquiv1 _ 2048 rfl rfl).symm c) = ix2 c j := by
    funext ax; apply Fin.ext
    match ax with
    | ⟨0, _⟩ =>
      exact (DotDims.rhsIdx_val_of_single _ (cr := (0 : Fin 2)) rfl _ _).trans c2
    | ⟨1, _⟩ => simp [DotDims.rhsIdx, dot_S2048x1024_S2048x1024_S1024x1024_0_0_1_1_n_n]; rfl
  rw [l2, r2]

/-- The running Gram sum after one more tile. -/
theorem pay12_real (v3 : Vec Ideal S1x2048x1024 .f32) (T : Fin 2048 → Fin 1024 → ℝ)
    (h3 : ∀ p j, v3 (ix3 (0 : Fin 1) p j) = ((T p j : ℝ) : EReal))
    (v14 : Vec Ideal S1024x1024 .f32) (A : Fin 1024 → Fin 1024 → ℝ)
    (h14 : ∀ i j, v14 (ix2 i j) = ((A i j : ℝ) : EReal)) (i j : Fin 1024) :
    k0_pay12 (F := Ideal) v3 v14 (ix2 i j) = ((A i j + ∑ p : Fin 2048, T p i * T p j : ℝ) : EReal) := by
  have hx : ∀ p q, k0_pay11 (F := Ideal) v3 (ix2 p q) = ((T p q : ℝ) : EReal) := pay11_real v3 T h3
  unfold k0_pay12
  rw [shapeCast_self, addf_apply, addf_apply, addf_apply, matmul_rows_apply, matmul_rows_apply,
    matmul_rows_apply, h14]
  have e5 : ∀ (p : Fin 2048) (a : Fin 1024),
      (truncf .bf16 (k0_pay11 (F := Ideal) v3) bitsLt_bf16_f32 : FVec Ideal S2048x1024 .bf16) (ix2 p a)
        = ((T p a : ℝ) : EReal) := fun p a => by
    rw [truncf_apply, hx]
  have e8 : ∀ (p : Fin 2048) (a : Fin 1024),
      (truncf .bf16 (subf (k0_pay11 (F := Ideal) v3) (k0_pay11 (F := Ideal) v3)) bitsLt_bf16_f32 :
        FVec Ideal S2048x1024 .bf16) (ix2 p a) = ((0 : ℝ) : EReal) := fun p a => by
    rw [truncf_apply, subf_apply, hx, ← EReal.coe_sub, sub_self]
  simp only [e5, e8, ← EReal.coe_mul, coe_sum, ← EReal.coe_add]
  congr 1
  simp

end Cert.KernelIdeal.Pay

end
-- ==== Proof.Pay14.lean ====
/-
  The running sum of squares of each column: the tile's entrywise squares summed over the 2048 rows are
  added to the running sum.
-/
import proofs.«164931_j41618233099088_2_alg».proof.Proof.PayReduce

noncomputable section

open scoped BigOperators

namespace Cert.KernelIdeal.Pay

open Cert.KernelIdeal Cert.KernelIdeal.Gen Idealize.ShloMosaic Idealize.ShloMosaic.ValueIdx Cert.Decorr

/-- The running column sums of squares after one more tile. -/
theorem pay14_real (v3 : Vec Ideal S1x2048x1024 .f32) (T : Fin 2048 → Fin 1024 → ℝ)
    (h3 : ∀ p j, v3 (ix3 (0 : Fin 1) p j) = ((T p j : ℝ) : EReal))
    (v20 : Vec Ideal S1x1024 .f32) (s : Fin 1024 → ℝ)
    (h20 : ∀ j, v20 (ix2 (0 : Fin 1) j) = ((s j : ℝ) : EReal)) (j : Fin 1024) :
    k0_pay14 (F := Ideal) v3 v20 (ix2 (0 : Fin 1) j) = ((s j + ∑ p : Fin 2048, T p j * T p j : ℝ) : EReal) := by
  have hs := sum_rows_apply (k0_pay13 (F := Ideal) v3) Facts₀.reduces_S2048x1024_S1024 (.inl rfl) rfl j
  unfold k0_pay14
  rw [shapeCast_self, addf_apply, shapeCast_a_1a_apply, h20, hs]
  simp only [pay13_real v3 T h3, coe_sum, ← EReal.coe_add]

end Cert.KernelIdeal.Pay

end
-- ==== Proof.Pay1.lean ====
/-
  The running sum of the per-sample terms of the second result.  For each row `p` of the tile the kernel
  forms `(Σ_j x_{p,j}²)² − Σ_j (x_{p,j}²)²`, sums these over the 2048 rows and adds the total to the
  running sum.
-/
import proofs.«164931_j41618233099088_2_alg».proof.Proof.PayReduce

noncomputable section

open scoped BigOperators

namespace Cert.KernelIdeal.Pay

open Cert.KernelIdeal Cert.KernelIdeal.Gen Idealize.ShloMosaic Idealize.ShloMosaic.ValueIdx Cert.Decorr

/-- Row `p`'s term: `(Σ_j x_{p,j}²)² − Σ_j (x_{p,j}²)²`. -/
theorem pay15_real (v3 : Vec Ideal S1x2048x1024 .f32) (T : Fin 2048 → Fin 1024 → ℝ)
    (h3 : ∀ p j, v3 (ix3 (0 : Fin 1) p j) = ((T p j : ℝ) : EReal)) (p : Fin 2048) :
    k0_pay15 (F := Ideal) v3 (ix2 (0 : Fin 1) p) = ((corrRow (T p) : ℝ) : EReal) := by
  have h27 := sum_cols_apply (k0_pay13 (F := Ideal) v3) Facts₀.reduces_S2048x1024_S2048 (.inl rfl) rfl p
  have h29 := sum_cols_apply (mulf (k0_pay13 (F := Ideal) v3) (k0_pay13 (F := Ideal) v3))
    Facts₀.reduces_S2048x1024_S2048 (.inl rfl) rfl p
  unfold k0_pay15
  rw [shapeCast_a_1a_apply, subf_apply, mulf_apply, h27, h29]
  simp only [mulf_apply, pay13_real v3 T h3, ← EReal.coe_mul, coe_sum, ← EReal.coe_sub]
  rfl

/-- The running sum after one more tile. -/
theorem pay1_real (v3 : Vec Ideal S1x2048x1024 .f32) (T : Fin 2048 → Fin 1024 → ℝ)
    (h3 : ∀ p j, v3 (ix3 (0 : Fin 1) p j) = ((T p j : ℝ) : EReal))
    (v30 : Vec Ideal S1x1 .f32) (a : ℝ) (h30 : v30 (ix2 (0 : Fin 1) (0 : Fin 1)) = ((a : ℝ) : EReal)) :
    k0_pay1 (F := Ideal) v30 (k0_pay15 (F := Ideal) v3) (ix2 (0 : Fin 1) (0 : Fin 1))
      = ((a + ∑ p : Fin 2048, corrRow (T p) : ℝ) : EReal) := by
  have hs := sum_row_apply (k0_pay15 (F := Ideal) v3) Facts₀.reduces_S1x2048_S1 (.inl rfl) rfl (0 : Fin 1)
  unfold k0_pay1
  rw [shapeCast_self, addf_apply, broadcast_apply, extractAt_1x1, shapeCast_a_1a_apply, h30, hs]
  simp only [pay15_real v3 T h3, coe_sum, ← EReal.coe_add]

end Cert.KernelIdeal.Pay

end
-- ==== Proof.Pay2.lean ====
/-
  The running sum of the per-sample terms of the third result: the tile's `(x² − 1)²` summed over all its
  entries is added to the running sum.
-/
import proofs.«164931_j41618233099088_2_alg».proof.Proof.PayReduce

noncomputable section

open scoped BigOperators

namespace Cert.KernelIdeal.Pay

open Cert.KernelIdeal Cert.KernelIdeal.Gen Idealize.ShloMosaic Idealize.ShloMosaic.ValueIdx Cert.Decorr

/-- A one-entry vector viewed in any shape reads its one entry everywhere. -/
theorem shapeCast_S1_apply {α : Type} {t : Shape} (x : S1.Idx → α) (h : S1.ShapeCasts t) (j : t.Idx) (k : S1.Idx) :
    shapeCast t x h j = x k := by
  unfold shapeCast
  exact congrArg x ((eq_ix1 _).trans ((congrArg ix1 (Subsingleton.elim (α := Fin 1) _ _)).trans (eq_ix1 k).symm))

/-- The running sum after one more tile. -/
theorem pay2_real (v3 : Vec Ideal S1x2048x1024 .f32) (T : Fin 2048 → Fin 1024 → ℝ)
    (h3 : ∀ p j, v3 (ix3 (0 : Fin 1) p j) = ((T p j : ℝ) : EReal))
    (v42 : Vec Ideal S1x1 .f32) (a : ℝ) (h42 : v42 (ix2 (0 : Fin 1) (0 : Fin 1)) = ((a : ℝ) : EReal)) :
    k0_pay2 (F := Ideal) (k0_pay13 (F := Ideal) v3) v42 (ix2 (0 : Fin 1) (0 : Fin 1))
      = ((a + ∑ p : Fin 2048, whitRow (T p) : ℝ) : EReal) := by
  unfold k0_pay2
  rw [shapeCast_self, addf_apply, broadcast_apply, extractAt_1x1x1, h42,
    shapeCast_S1_apply _ _ _ (ix1 (0 : Fin 1))]
  refine (congrArg (fun z => ((a : ℝ) : EReal) + z)
    (sum_all_apply _ Facts₀.reduces_S1x2048x1024_S1 (.inl rfl) rfl _)).trans ?_
  simp only [shapeCast_ab_1ab_apply, mulf_apply, subf_apply, broadcast_apply, pay13_real v3 T h3,
    Scalar.ofBits, Ideal.ofBits_def, ofBits_one, ← EReal.coe_sub, ← EReal.coe_mul, coe_sum, ← EReal.coe_add]
  rfl

end Cert.KernelIdeal.Pay

end
-- ==== Proof.Pay4.lean ====
/-
  The first result's part from one half: with `δ` the diagonal indicator (the two coordinate arrays compared
  entrywise, the bit read as the real 0 or 1), the kernel stores
  `½ · (A_{i,j} / 32768 · (1 − δ)) + ½ · (δ · (s_j / 32768))`.
-/
import proofs.«164931_j41618233099088_2_alg».proof.Proof.PayBase

noncomputable section

open scoped BigOperators

namespace Cert.KernelIdeal.Pay

open Cert.KernelIdeal Cert.KernelIdeal.Gen Idealize.ShloMosaic Idealize.ShloMosaic.ValueIdx Cert.Decorr

/-- Two coordinates below 1024, as 32-bit words, are equal words exactly when they are equal; the bit of the
    comparison, widened to a word and read as a signed integer, is 1 or 0. -/
theorem eq_word_toInt (i j : Fin 1024) :
    ((IntOp.cmpi .eq (BitVec.ofNat 32 i.val) (BitVec.ofNat 32 j.val)).setWidth 32).toInt
      = if i = j then 1 else 0 := by
  by_cases h : i = j
  · subst h
    simp [IntOp.cmpi]
  · have hne : (BitVec.ofNat 32 i.val) ≠ (BitVec.ofNat 32 j.val) := by
      intro e
      apply h
      apply Fin.ext
      have e' := congrArg BitVec.toNat e
      simp only [BitVec.toNat_ofNat] at e'
      have := i.isLt
      have := j.isLt
      omega
    have hb : (BitVec.ofNat 32 i.val == BitVec.ofNat 32 j.val) = false := beq_eq_false_iff_ne.mpr hne
    simp [IntOp.cmpi, hb, h]

/-- The diagonal indicator as the kernel builds it, at `(i, j)`. -/
theorem diag_real (h0 : S1024x1024.Iotas .tc 32 [0]) (h1 : S1024x1024.Iotas .tc 32 [1]) (hlt : 1 < 32)
    (i j : Fin 1024) :
    (sitofp .f32 (extui 32 (cmpi .eq (iota .tc S1024x1024 32 [0] h0) (iota .tc S1024x1024 32 [1] h1)) hlt) :
        FVec Ideal S1024x1024 .f32) (ix2 i j) = (((if i = j then 1 else 0 : ℝ)) : EReal) := by
  rw [sitofp_apply, extui_apply]
  show FloatOps.sitofp .f32 ((IntOp.cmpi .eq (iota .tc S1024x1024 32 [0] h0 (ix2 i j))
    (iota .tc S1024x1024 32 [1] h1 (ix2 i j))).setWidth 32) = _
  rw [iota_single_apply, iota_single_apply]
  show ((((IntOp.cmpi .eq (BitVec.ofNat 32 i.val) (BitVec.ofNat 32 j.val)).setWidth 32).toInt : ℝ) : EReal) = _
  rw [eq_word_toInt]
  split <;> simp

/-- The stored part at `(0, i, j)`. -/
theorem pay4_real (v63 : Vec Ideal S1024x1024 .f32) (A : Fin 1024 → Fin 1024 → ℝ)
    (h63 : ∀ i j, v63 (ix2 i j) = ((A i j : ℝ) : EReal))
    (v69 : Vec Ideal S1x1024 .f32) (s : Fin 1024 → ℝ)
    (h69 : ∀ j, v69 (ix2 (0 : Fin 1) j) = ((s j : ℝ) : EReal)) (i j : Fin 1024) :
    k0_pay4 (F := Ideal) v63 v69 (ix3 (0 : Fin 1) i j)
      = (((1 / 2) * (A i j / 32768 * (1 - (if i = j then 1 else 0)))
          + (1 / 2) * ((if i = j then 1 else 0) * (s j / 32768)) : ℝ) : EReal) := by
  have hd := diag_real Facts₀.iota_S1024x1024_d0_w32 Facts₀.iota_S1024x1024_d1_w32 Facts₀.natLt_1_32 i j
  unfold k0_pay4
  rw [shapeCast_ab_1ab_apply]
  simp only [addf_apply, mulf_apply, subf_apply]
  rw [hd]
  simp only [addf_apply, mulf_apply, subf_apply, divf_apply, broadcast_apply, broadcastTo_1b_ab_apply,
    h63, h69, Ideal.ofBits_def, ofBits_one, ofBits_half, ofBits_32768,
    div_real _ _ (by norm_num : (32768 : ℝ) ≠ 0), ← EReal.coe_sub, ← EReal.coe_mul, ← EReal.coe_add]

end Cert.KernelIdeal.Pay

end
-- ==== Proof.PaySmall.lean ====
/-
  The remaining payloads: the four zero fills that start a half's running sums, and the two scalar results'
  parts, each a running sum divided by a constant (`2^35 = 32768 · 1048576` for the second result,
  `2^25 = 32768 · 1024` for the third).
-/
import proofs.«164931_j41618233099088_2_alg».proof.Proof.PayBase

noncomputable section

open scoped BigOperators

namespace Cert.KernelIdeal.Pay

open Cert.KernelIdeal Cert.KernelIdeal.Gen Idealize.ShloMosaic Idealize.ShloMosaic.ValueIdx Cert.Decorr

/-- The Gram accumulator starts at zero. -/
theorem pay7_real (i j : Fin 1024) : k0_pay7 (F := Ideal) (ix2 i j) = ((0 : ℝ) : EReal) := by
  unfold k0_pay7
  rw [shapeCast_self, broadcast_apply]
  exact ofBits_zero

/-- The column accumulator starts at zero. -/
theorem pay8_real (j : Fin 1024) : k0_pay8 (F := Ideal) (ix2 (0 : Fin 1) j) = ((0 : ℝ) : EReal) := by
  unfold k0_pay8
  rw [shapeCast_self, broadcast_apply]
  exact ofBits_zero

/-- The second result's accumulator starts at zero. -/
theorem pay9_real : k0_pay9 (F := Ideal) (ix2 (0 : Fin 1) (0 : Fin 1)) = ((0 : ℝ) : EReal) := by
  unfold k0_pay9
  rw [shapeCast_self, broadcast_apply]
  exact ofBits_zero

/-- The third result's accumulator starts at zero. -/
theorem pay10_real : k0_pay10 (F := Ideal) (ix2 (0 : Fin 1) (0 : Fin 1)) = ((0 : ℝ) : EReal) := by
  unfold k0_pay10
  rw [shapeCast_self, broadcast_apply]
  exact ofBits_zero

/-- The second result's part: the running sum divided by `2^35`. -/
theorem pay5_real (v82 : Vec Ideal S1x1 .f32) (a : ℝ)
    (h : v82 (ix2 (0 : Fin 1) (0 : Fin 1)) = ((a : ℝ) : EReal)) :
    k0_pay5 (F := Ideal) v82 (ix3 (0 : Fin 1) (0 : Fin 1) (0 : Fin 1)) = ((a / 34359738368 : ℝ) : EReal) := by
  unfold k0_pay5
  rw [shapeCast_ab_1ab_apply, divf_apply, broadcast_apply, h]
  exact (congrArg (Ideal.div ((a : ℝ) : EReal)) ofBits_34359738368).trans (div_real _ _ (by norm_num))

/-- The third result's running sum divided by `2^25`. -/
theorem pay6_real (v88 : Vec Ideal S1x1 .f32) (a : ℝ)
    (h : v88 (ix2 (0 : Fin 1) (0 : Fin 1)) = ((a : ℝ) : EReal)) :
    k0_pay6 (F := Ideal) v88 (ix2 (0 : Fin 1) (0 : Fin 1)) = ((a / 33554432 : ℝ) : EReal) := by
  unfold k0_pay6
  rw [divf_apply, broadcast_apply, h]
  exact (congrArg (Ideal.div ((a : ℝ) : EReal)) ofBits_33554432).trans (div_real _ _ (by norm_num))

/-- The third result's part as it is stored. -/
theorem pay3_real (v88 : Vec Ideal S1x1 .f32) (a : ℝ)
    (h : v88 (ix2 (0 : Fin 1) (0 : Fin 1)) = ((a : ℝ) : EReal)) :
    k0_pay3 (F := Ideal) (k0_pay6 (F := Ideal) v88) (ix3 (0 : Fin 1) (0 : Fin 1) (0 : Fin 1))
      = ((a / 33554432 : ℝ) : EReal) := by
  unfold k0_pay3
  rw [shapeCast_ab_1ab_apply, pay6_real v88 a h]

end Cert.KernelIdeal.Pay

end
-- ==== Proof.Pay.lean ====
/-
  The kernel's arithmetic, payload by payload, over real entries.
-/
import proofs.«164931_j41618233099088_2_alg».proof.Proof.PayBase
import proofs.«164931_j41618233099088_2_alg».proof.Proof.PayReduce
import proofs.«164931_j41618233099088_2_alg».proof.Proof.Pay12
import proofs.«164931_j41618233099088_2_alg».proof.Proof.Pay14
import proofs.«164931_j41618233099088_2_alg».proof.Proof.Pay1
import proofs.«164931_j41618233099088_2_alg».proof.Proof.Pay2
import proofs.«164931_j41618233099088_2_alg».proof.Proof.Pay4
import proofs.«164931_j41618233099088_2_alg».proof.Proof.PaySmall
-- ==== Proof.KAccum.lean ====
/-
  The running sums.  With the flattened argument's entries the reals `R`, after grid point `t` (half
  `t / 8`, tile `t % 8`) the four accumulators hold the sums over the half's tiles `0 … t % 8` of the
  tile's Gram sums, column sums of squares, and the two per-sample loss terms; by induction on the point:
  the first tile of a half starts from zero, every other tile adds to what the point before left.  After
  the last tile of a half the three outputs hold that half's contribution to the three results.
-/
import proofs.«164931_j41618233099088_2_alg».proof.Proof.Gen.KernelIdeal.Frame
import proofs.«164931_j41618233099088_2_alg».proof.Proof.KOuts
import proofs.«164931_j41618233099088_2_alg».proof.Proof.KInput
import proofs.«164931_j41618233099088_2_alg».proof.Proof.Spec
import proofs.«164931_j41618233099088_2_alg».proof.Proof.Pay

noncomputable section

open Idealize.ShloMosaic Idealize.ShloMosaic.TcCoe Idealize.SL.Sem
open Idealize.ShloMosaic.Pipeline (Dat)
open Cert.KernelIdeal Cert.KernelIdeal.Gen Idealize.ShloMosaic.ValueIdx Cert.Decorr Cert.KernelIdeal.Pay
open scoped BigOperators
namespace Cert.KernelIdeal.KAccum

variable (m : (ℓ : Loc nD τ sig) → Buf (Elt Ideal) ℓ) (c : Dev nD) (R : Fin 32768 → Fin 1024 → ℝ)

/-- Every entry of the flattened argument is the coercion of the real `R` there. -/
def Reads : Prop := ∀ a b, KInput.flat m c (ix2 a b) = ((R a b : ℝ) : EReal)

/-- The block a grid point is handed is the tile's rows. -/
theorem tile_entry (hR : Reads m c R) (t : Fin cfg0.N) (p : Fin 2048) (j : Fin 1024) :
    (iblk m c 0 t : Vec Ideal S1x2048x1024 .f32) (ix3 (0 : Fin 1) p j)
      = ((tileRow R (t.val / 8) (t.val % 8) p j : ℝ) : EReal) := by
  have hN : t.val < 16 := lt_of_lt_of_eq t.isLt (show cfg0.N = 16 from N_0)
  have hr : (t.val / 8) * 16384 + (t.val % 8) * 2048 + p.val < 32768 := by have := p.isLt; omega
  rw [KInput.iblk_apply m c t p j hr, hR]
  unfold tileRow Rn
  rw [dif_pos hr]

/-! ## The sums one tile further -/

theorem accGram_step (h n : ℕ) (i j : Fin 1024) :
    accGram R h n i j + ∑ p : Fin 2048, tileRow R h n p i * tileRow R h n p j = accGram R h (n + 1) i j := by
  unfold accGram; rw [Finset.sum_range_succ]; rfl
theorem accCol_step (h n : ℕ) (j : Fin 1024) :
    accCol R h n j + ∑ p : Fin 2048, tileRow R h n p j * tileRow R h n p j = accCol R h (n + 1) j := by
  unfold accCol; rw [Finset.sum_range_succ]; rfl
theorem accCorr_step (h n : ℕ) :
    accCorr R h n + ∑ p : Fin 2048, corrRow (tileRow R h n p) = accCorr R h (n + 1) := by
  unfold accCorr; rw [Finset.sum_range_succ]; rfl
theorem accWhit_step (h n : ℕ) :
    accWhit R h n + ∑ p : Fin 2048, whitRow (tileRow R h n p) = accWhit R h (n + 1) := by
  unfold accWhit; rw [Finset.sum_range_succ]; rfl

theorem accGram_zero (h : ℕ) (i j : Fin 1024) : accGram R h 0 i j = 0 := by unfold accGram; rfl
theorem accCol_zero (h : ℕ) (j : Fin 1024) : accCol R h 0 j = 0 := by unfold accCol; rfl
theorem accCorr_zero (h : ℕ) : accCorr R h 0 = 0 := by unfold accCorr; rfl
theorem accWhit_zero (h : ℕ) : accWhit R h 0 = 0 := by unfold accWhit; rfl

/-! ## What the buffers hold after a point -/

/-- After point `n`: the accumulators at the half's sums over tiles `0 … n % 8`; at the last tile of a half
    the outputs at the half's contributions. -/
structure Inv (n : ℕ) (hn : n < cfg0.N) : Prop where
  gram : ∀ i j : Fin 1024, (outsAt0 m c n hn).2.2.2.1 (ix2 i j) = ((accGram R (n / 8) (n % 8 + 1) i j : ℝ) : EReal)
  col : ∀ j : Fin 1024, (outsAt0 m c n hn).2.2.2.2.1 (ix2 (0 : Fin 1) j) = ((accCol R (n / 8) (n % 8 + 1) j : ℝ) : EReal)
  corr : (outsAt0 m c n hn).2.2.2.2.2.1 (ix2 (0 : Fin 1) (0 : Fin 1)) = ((accCorr R (n / 8) (n % 8 + 1) : ℝ) : EReal)
  whit : (outsAt0 m c n hn).2.2.2.2.2.2 (ix2 (0 : Fin 1) (0 : Fin 1)) = ((accWhit R (n / 8) (n % 8 + 1) : ℝ) : EReal)
  ograd : n % 8 = 7 → ∀ i j : Fin 1024, (outsAt0 m c n hn).1 (ix3 (0 : Fin 1) i j) = ((gradPart R (n / 8) i j : ℝ) : EReal)
  ocorr : n % 8 = 7 → (outsAt0 m c n hn).2.1 (ix3 (0 : Fin 1) (0 : Fin 1) (0 : Fin 1)) = ((corrPart R (n / 8) : ℝ) : EReal)
  owhit : n % 8 = 7 → (outsAt0 m c n hn).2.2.1 (ix3 (0 : Fin 1) (0 : Fin 1) (0 : Fin 1)) = ((whitPart R (n / 8) : ℝ) : EReal)

/-- The first tile of a half. -/
theorem inv_first (hR : Reads m c R) (t : Fin cfg0.N) (h0 : t.val % 8 = 0) : Inv m c R t.val t.isLt := by
  have h1 : ¬t.val % 8 = 7 := by omega
  obtain ⟨eg, ec, er, ew⟩ := KOuts.after_first m c t h0 h1
  have hT := tile_entry m c R hR t
  refine ⟨fun i j => ?_, fun j => ?_, ?_, ?_, fun h => absurd h h1, fun h => absurd h h1, fun h => absurd h h1⟩
  · rw [eg]
    refine (pay12_real (iblk m c 0 t) (tileRow R (t.val / 8) (t.val % 8)) hT (k0_pay7 (F := Ideal)) (fun _ _ => 0) (fun a b => pay7_real a b) i j).trans ?_
    rw [← accGram_step, h0, accGram_zero]
  · rw [ec]
    refine (pay14_real (iblk m c 0 t) (tileRow R (t.val / 8) (t.val % 8)) hT (k0_pay8 (F := Ideal)) (fun _ => 0) (fun b => pay8_real b) j).trans ?_
    rw [← accCol_step, h0, accCol_zero]
  · rw [er]
    refine (pay1_real (iblk m c 0 t) (tileRow R (t.val / 8) (t.val % 8)) hT (k0_pay9 (F := Ideal)) 0 pay9_real).trans ?_
    rw [← accCorr_step, h0, accCorr_zero]
  · rw [ew]
    refine (pay2_real (iblk m c 0 t) (tileRow R (t.val / 8) (t.val % 8)) hT (k0_pay10 (F := Ideal)) 0 pay10_real).trans ?_
    rw [← accWhit_step, h0, accWhit_zero]

/-- Any other tile of a half, from the point before. -/
theorem inv_next (hR : Reads m c R) (t : Fin cfg0.N) (h0 : ¬t.val % 8 = 0)
    (ih : Inv m c R (t.val - 1) (Nat.lt_of_le_of_lt (Nat.sub_le _ _) t.isLt)) : Inv m c R t.val t.isLt := by
  have hT := tile_entry m c R hR t
  have hq : (t.val - 1) / 8 = t.val / 8 := by omega
  have hk : (t.val - 1) % 8 + 1 = t.val % 8 := by omega
  have ihg := ih.gram; have ihc := ih.col; have ihr := ih.corr; have ihw := ih.whit
  rw [hq, hk] at ihg ihc ihr ihw
  have key : (outsAt0 m c t.val t.isLt).2.2.2.1 = k0_pay12 (iblk m c 0 t) (outsAt0 m c (t.val - 1) (Nat.lt_of_le_of_lt (Nat.sub_le _ _) t.isLt)).2.2.2.1
      ∧ (outsAt0 m c t.val t.isLt).2.2.2.2.1 = k0_pay14 (iblk m c 0 t) (outsAt0 m c (t.val - 1) (Nat.lt_of_le_of_lt (Nat.sub_le _ _) t.isLt)).2.2.2.2.1
      ∧ (outsAt0 m c t.val t.isLt).2.2.2.2.2.1 = k0_pay1 (outsAt0 m c (t.val - 1) (Nat.lt_of_le_of_lt (Nat.sub_le _ _) t.isLt)).2.2.2.2.2.1 (k0_pay15 (iblk m c 0 t))
      ∧ (outsAt0 m c t.val t.isLt).2.2.2.2.2.2 = k0_pay2 (k0_pay13 (iblk m c 0 t)) (outsAt0 m c (t.val - 1) (Nat.lt_of_le_of_lt (Nat.sub_le _ _) t.isLt)).2.2.2.2.2.2 := by
    by_cases h1 : t.val % 8 = 7
    · obtain ⟨a, b, d, e, _⟩ := KOuts.after_last m c t h0 h1; exact ⟨a, b, d, e⟩
    · exact KOuts.after_mid m c t h0 h1
  obtain ⟨eg, ec, er, ew⟩ := key
  have hg : ∀ i j : Fin 1024, (k0_pay12 (iblk m c 0 t) (outsAt0 m c (t.val - 1) (Nat.lt_of_le_of_lt (Nat.sub_le _ _) t.isLt)).2.2.2.1 : Vec Ideal S1024x1024 .f32) (ix2 i j)
      = ((accGram R (t.val / 8) (t.val % 8 + 1) i j : ℝ) : EReal) := fun i j => by
    refine (pay12_real (iblk m c 0 t) (tileRow R (t.val / 8) (t.val % 8)) hT _ (accGram R (t.val / 8) (t.val % 8)) ihg i j).trans ?_
    rw [← accGram_step]
  have hc : ∀ j : Fin 1024, (k0_pay14 (iblk m c 0 t) (outsAt0 m c (t.val - 1) (Nat.lt_of_le_of_lt (Nat.sub_le _ _) t.isLt)).2.2.2.2.1 : Vec Ideal S1x1024 .f32) (ix2 (0 : Fin 1) j)
      = ((accCol R (t.val / 8) (t.val % 8 + 1) j : ℝ) : EReal) := fun j => by
    refine (pay14_real (iblk m c 0 t) (tileRow R (t.val / 8) (t.val % 8)) hT _ (accCol R (t.val / 8) (t.val % 8)) ihc j).trans ?_
    rw [← accCol_step]
  have hr : (k0_pay1 (outsAt0 m c (t.val - 1) (Nat.lt_of_le_of_lt (Nat.sub_le _ _) t.isLt)).2.2.2.2.2.1 (k0_pay15 (iblk m c 0 t)) : Vec Ideal S1x1 .f32) (ix2 (0 : Fin 1) (0 : Fin 1))
      = ((accCorr R (t.val / 8) (t.val % 8 + 1) : ℝ) : EReal) := by
    refine (pay1_real (iblk m c 0 t) (tileRow R (t.val / 8) (t.val % 8)) hT _ (accCorr R (t.val / 8) (t.val % 8)) ihr).trans ?_
    rw [← accCorr_step]
  have hw : (k0_pay2 (k0_pay13 (iblk m c 0 t)) (outsAt0 m c (t.val - 1) (Nat.lt_of_le_of_lt (Nat.sub_le _ _) t.isLt)).2.2.2.2.2.2 : Vec Ideal S1x1 .f32) (ix2 (0 : Fin 1) (0 : Fin 1))
      = ((accWhit R (t.val / 8) (t.val % 8 + 1) : ℝ) : EReal) := by
    refine (pay2_real (iblk m c 0 t) (tileRow R (t.val / 8) (t.val % 8)) hT _ (accWhit R (t.val / 8) (t.val % 8)) ihw).trans ?_
    rw [← accWhit_step]
  refine ⟨fun i j => by rw [eg]; exact hg i j, fun j => by rw [ec]; exact hc j, by rw [er]; exact hr, by rw [ew]; exact hw,
    fun h1 i j => ?_, fun h1 => ?_, fun h1 => ?_⟩
  · obtain ⟨_, _, _, _, eo, _, _⟩ := KOuts.after_last m c t h0 h1
    rw [eo]
    rw [h1] at hg hc
    exact pay4_real _ (accGram R (t.val / 8) 8) hg _ (accCol R (t.val / 8) 8) hc i j
  · obtain ⟨_, _, _, _, _, eo, _⟩ := KOuts.after_last m c t h0 h1
    rw [eo]
    rw [h1] at hr
    exact pay5_real _ (accCorr R (t.val / 8) 8) hr
  · obtain ⟨_, _, _, _, _, _, eo⟩ := KOuts.after_last m c t h0 h1
    rw [eo]
    rw [h1] at hw
    exact pay3_real _ (accWhit R (t.val / 8) 8) hw

/-- At every point. -/
theorem inv (hR : Reads m c R) : ∀ (n : ℕ) (hn : n < cfg0.N), Inv m c R n hn
  | 0, hn => inv_first m c R hR ⟨0, hn⟩ rfl
  | n + 1, hn => by
    by_cases h0 : (n + 1) % 8 = 0
    · exact inv_first m c R hR ⟨n + 1, hn⟩ h0
    · exact inv_next m c R hR ⟨n + 1, hn⟩ h0 (inv hR n (Nat.lt_of_succ_lt hn))

end Cert.KernelIdeal.KAccum

end
-- ==== Proof.Regroup.lean ====
/-
  Regrouping the sums over the 32768 samples.  The samples are two halves of eight tiles of 2048 rows each,
  sample `c · 16384 + k · 2048 + p` being row `p` of tile `k` of half `c`; a sum over all samples is the sum
  over halves, tiles and rows.  From this the two halves' parts of each result add up to the result.
-/
import proofs.«164931_j41618233099088_2_alg».proof.Proof.Spec

noncomputable section

open scoped BigOperators

namespace Cert.Decorr

/-- A sum over `a · b` consecutive naturals is a sum over `a` blocks of `b`. -/
theorem sum_range_mul (g : ℕ → ℝ) (a b : ℕ) :
    ∑ m ∈ Finset.range (a * b), g m = ∑ c ∈ Finset.range a, ∑ q ∈ Finset.range b, g (c * b + q) := by
  induction a with
  | zero => simp
  | succ a ih => rw [add_mul, one_mul, Finset.sum_range_add, ih, Finset.sum_range_succ]

/-- A sum over the 32768 samples, by halves, tiles and rows. -/
theorem sum_rows (g : ℕ → ℝ) :
    ∑ m : Fin 32768, g m.val
      = ∑ c ∈ Finset.range 2, ∑ k ∈ Finset.range 8, ∑ p : Fin 2048, g (c * 16384 + k * 2048 + p.val) := by
  rw [Fin.sum_univ_eq_sum_range g 32768]
  refine (sum_range_mul g 2 16384).trans ?_
  refine Finset.sum_congr rfl fun c _ => ?_
  refine (sum_range_mul (fun q => g (c * 16384 + q)) 8 2048).trans ?_
  refine Finset.sum_congr rfl fun k _ => ?_
  refine Eq.trans ?_ (Fin.sum_univ_eq_sum_range (fun q => g (c * 16384 + k * 2048 + q)) 2048).symm
  refine Finset.sum_congr rfl fun q _ => ?_
  show g (c * 16384 + (k * 2048 + q)) = g (c * 16384 + k * 2048 + q)
  rw [Nat.add_assoc]

/-- A sum of a function of the samples' rows, by halves, tiles and rows. -/
theorem sum_rows_of (R : Fin 32768 → Fin 1024 → ℝ) (f : (Fin 1024 → ℝ) → ℝ) :
    ∑ m : Fin 32768, f (R m)
      = ∑ c ∈ Finset.range 2, ∑ k ∈ Finset.range 8, ∑ p : Fin 2048, f (tileRow R c k p) := by
  have h := sum_rows (fun n => f (Rn R n))
  simp only [Rn_val] at h
  exact h

/-- A sum over the two halves. -/
theorem sum_two (f : ℕ → ℝ) : ∑ c ∈ Finset.range 2, f c = f 0 + f 1 := by
  rw [Finset.sum_range_succ, Finset.sum_range_succ, Finset.sum_range_zero, zero_add]

/-- The Gram sum is the two halves' running sums after their eight tiles. -/
theorem gram_split (R : Fin 32768 → Fin 1024 → ℝ) (i j : Fin 1024) :
    gram R i j = accGram R 0 8 i j + accGram R 1 8 i j := by
  rw [← sum_two (fun c => accGram R c 8 i j)]
  exact sum_rows_of R (fun r => r i * r j)

/-- A column's sum of squares likewise. -/
theorem col_split (R : Fin 32768 → Fin 1024 → ℝ) (j : Fin 1024) :
    gram R j j = accCol R 0 8 j + accCol R 1 8 j := by
  rw [← sum_two (fun c => accCol R c 8 j)]
  exact sum_rows_of R (fun r => r j * r j)

/-- The second result's sum over the samples likewise. -/
theorem corr_split (R : Fin 32768 → Fin 1024 → ℝ) :
    ∑ m, corrRow (R m) = accCorr R 0 8 + accCorr R 1 8 := by
  rw [← sum_two (fun c => accCorr R c 8)]
  exact sum_rows_of R corrRow

/-- The third result's sum over the samples likewise. -/
theorem whit_split (R : Fin 32768 → Fin 1024 → ℝ) :
    ∑ m, whitRow (R m) = accWhit R 0 8 + accWhit R 1 8 := by
  rw [← sum_two (fun c => accWhit R c 8)]
  exact sum_rows_of R whitRow

/-- The two halves' parts of the first result, less half the identity, are the first result. -/
theorem grad_final (R : Fin 32768 → Fin 1024 → ℝ) (i j : Fin 1024) :
    (0 + ∑ c : Fin 2, gradPart R c.val i j) - (1 / 2) * (if i = j then 1 else 0) = grad R i j := by
  rw [Fin.sum_univ_two]
  show (0 + (gradPart R 0 i j + gradPart R 1 i j)) - (1 / 2) * (if i = j then 1 else 0) = grad R i j
  unfold gradPart grad
  by_cases h : i = j
  · simp only [if_pos h]
    subst h
    rw [col_split R i]
    ring
  · simp only [if_neg h]
    rw [gram_split R i j]
    ring

/-- The two halves' parts of the second result add up to it. -/
theorem corr_final (R : Fin 32768 → Fin 1024 → ℝ) : 0 + ∑ c : Fin 2, corrPart R c.val = corr R := by
  rw [Fin.sum_univ_two]
  show 0 + (corrPart R 0 + corrPart R 1) = corr R
  unfold corrPart corr
  rw [corr_split R]
  ring

/-- The two halves' parts of the third result add up to it. -/
theorem whit_final (R : Fin 32768 → Fin 1024 → ℝ) : 0 + ∑ c : Fin 2, whitPart R c.val = whit R := by
  rw [Fin.sum_univ_two]
  show 0 + (whitPart R 0 + whitPart R 1) = whit R
  unfold whitPart whit
  rw [whit_split R]
  ring

end Cert.Decorr

end
-- ==== Proof.LibEye.lean ====
/-
  The Kronecker delta as the host spells it: the row number and the column number of a 1024 × 1024 array as
  32-bit words, their equality as a one-bit word, and that bit read as a number.  Both coordinates are below
  2³², so the words are equal exactly when the coordinates are; the bit's value is then 1 or 0.
-/
import Idealize.ShloMosaic.PureOps.Ideal
import Idealize.ShloMosaic.Lib.ValueIdx

noncomputable section

namespace Cert.Decorr.Eye

open Idealize.ShloMosaic Idealize.ShloMosaic.ValueIdx

/-- Two coordinates below 1024 are equal as 32-bit words exactly when they are equal. -/
theorem word_eq_iff (i j : Fin 1024) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl; rfl

/-- The host's identity matrix at `(i, j)`: one on the diagonal, zero off it. -/
theorem eye_apply (hb : (⟨0, ![]⟩ : Shape).BroadcastsInDim (⟨2, ![1024, 1024]⟩ : Shape) (![] : Fin 0 → Fin 2))
    (i j : Fin 1024) :
    (uitofp (F := Ideal) .f32
        (cmpi .eq
          (addi (iotaInDim (⟨2, ![1024, 1024]⟩ : Shape) 32 0)
            (broadcastInDim (⟨2, ![1024, 1024]⟩ : Shape) ![] hb (constantI (⟨0, ![]⟩ : Shape) 32 0#32)))
          (iotaInDim (⟨2, ![1024, 1024]⟩ : Shape) 32 1))) (ix2 i j)
      = (((if i = j then 1 else 0 : ℝ)) : EReal) := by
  show (((BitVec.ofBool (BitVec.ofNat 32 i.val + 0#32 == BitVec.ofNat 32 j.val)).toNat : ℝ) : EReal) = _
  rw [BitVec.add_zero]
  by_cases h : i = j
  · subst h
    simp
  · have hne : BitVec.ofNat 32 i.val ≠ BitVec.ofNat 32 j.val := fun e => h ((word_eq_iff i j).mp e)
    rw [if_neg h, beq_eq_false_iff_ne.mpr hne]
    simp

end Cert.Decorr.Eye

end
-- ==== Proof.KTail.lean ====
/-
  The three host operations after the region, read as values.  Each result array holds the two halves' parts
  along its leading axis; the host sums that axis (the first result's sum then loses half the identity
  matrix).  By the regrouping of the sums over the samples the totals are the three results.
-/
import proofs.«164931_j41618233099088_2_alg».proof.Proof.Gen.KernelIdeal
import proofs.«164931_j41618233099088_2_alg».proof.Proof.Spec
import proofs.«164931_j41618233099088_2_alg».proof.Proof.Regroup
import proofs.«164931_j41618233099088_2_alg».proof.Proof.LibEye
import proofs.«164931_j41618233099088_2_alg».proof.Proof.PayBase
import Idealize.ShloMosaic.Lib.IdealHost
import Idealize.ShloMosaic.PureOps.Ideal.Laws

noncomputable section

open scoped BigOperators

namespace Cert.KernelIdeal.KTail

open Cert.KernelIdeal Cert.KernelIdeal.Gen Idealize.ShloMosaic Idealize.ShloMosaic.ValueIdx Cert.Decorr
open Cert.KernelIdeal.Pay (ofBits_zero ofBits_half)

/-- The indices of a 2 × 1 × 1 array are its two leading coordinates. -/
def idxEquiv211 : S2x1x1.Idx ≃ Fin 2 where
  toFun i := i 0
  invFun h := ix3 h (0 : Fin 1) (0 : Fin 1)
  left_inv i := by
    funext c
    match c with
    | ⟨0, _⟩ => rfl
    | ⟨1, _⟩ => exact Subsingleton.elim (α := Fin 1) _ _
    | ⟨2, _⟩ => exact Subsingleton.elim (α := Fin 1) _ _
  right_inv _ := rfl

/-- The host's sum of a 2 × 1 × 1 array over all its axes, from zero: the sum of its two entries. -/
theorem reduce_all_apply (A : FVec Ideal S2x1x1 .f32) (idx : S_.Idx) :
    Host.reduceAdd (F := Ideal) A (constant (F := Ideal) S_ .f32 0#32) Facts₀.reducesTo_S2x1x1_S_d0_1_2 Facts₀.h_S_ idx
      = ((0 : ℝ) : EReal) + ∑ h : Fin 2, A (ix3 h (0 : Fin 1) (0 : Fin 1)) := by
  rw [hostReduceAdd_apply, Ideal.hostReduceAdd_total _ (fun b => b.elim0), constant_apply, ofBits_zero,
    ← Equiv.sum_comp idxEquiv211.symm (fun i => A i)]
  rfl

/-- The first result: the two halves' parts summed, less half the identity matrix. -/
theorem tail_grad_value (A : FVec Ideal S2x1024x1024 .f32) (R : Fin 32768 → Fin 1024 → ℝ)
    (hA : ∀ (h : Fin 2) (i j : Fin 1024), A (ix3 h i j) = ((gradPart R h.val i j : ℝ) : EReal)) :
    subf (Host.reduceAdd (F := Ideal) A (constant (F := Ideal) S_ .f32 0#32)
        Facts₀.reducesTo_S2x1024x1024_S1024x1024_d0 Facts₀.h_S_)
      (mulf (broadcastInDim S1024x1024 ![] Facts₀.bcast_S_S1024x1024 (constant (F := Ideal) S_ .f32 0x3F000000#32))
        (uitofp (F := Ideal) .f32 (cmpi .eq (addi (iotaInDim S1024x1024 32 0)
          (broadcastInDim S1024x1024 ![] Facts₀.bcast_S_S1024x1024 (constantI S_ 32 0#32))) (iotaInDim S1024x1024 32 1))))
    = Ggrad R := by
  funext idx
  obtain ⟨i, j, rfl⟩ : ∃ (i : Fin 1024) (j : Fin 1024), idx = ix2 i j := ⟨idx 0, idx 1, eq_ix2 idx⟩
  have hred : S2x1024x1024.Reduces [0] S1024x1024 := by decide
  rw [Ggrad_ix2, subf_apply, mulf_apply, Eye.eye_apply, broadcastInDim_scalar_apply, constant_apply,
    hostReduceAdd_apply, Ideal.hostReduceAdd_single Facts₀.reducesTo_S2x1024x1024_S1024x1024_d0 hred,
    constant_apply, ofBits_zero, ofBits_half]
  have hsum : (∑ k : Fin (S2x1024x1024.size 0), A (hred.lift (ix2 i j) k))
      = ∑ h : Fin 2, ((gradPart R h.val i j : ℝ) : EReal) := by
    refine Finset.sum_congr rfl fun h _ => ?_
    refine Eq.trans (congrArg A ?_) (hA h i j)
    funext c; apply Fin.ext
    match c with
    | ⟨0, _⟩ => rfl
    | ⟨1, _⟩ => rfl
    | ⟨2, _⟩ => rfl
  rw [hsum, Pay.coe_sum, ← EReal.coe_add, ← EReal.coe_mul, ← EReal.coe_sub, grad_final R i j]

/-- The second result: the two halves' parts summed. -/
theorem tail_corr_value (A : FVec Ideal S2x1x1 .f32) (R : Fin 32768 → Fin 1024 → ℝ)
    (hA : ∀ h : Fin 2, A (ix3 h (0 : Fin 1) (0 : Fin 1)) = ((corrPart R h.val : ℝ) : EReal)) :
    Host.reduceAdd (F := Ideal) A (constant (F := Ideal) S_ .f32 0#32) Facts₀.reducesTo_S2x1x1_S_d0_1_2 Facts₀.h_S_
      = Gcorr R := by
  funext idx
  rw [reduce_all_apply]
  simp only [hA, Pay.coe_sum, ← EReal.coe_add, corr_final R]
  rfl

/-- The third result: the two halves' parts summed. -/
theorem tail_whit_value (A : FVec Ideal S2x1x1 .f32) (R : Fin 32768 → Fin 1024 → ℝ)
    (hA : ∀ h : Fin 2, A (ix3 h (0 : Fin 1) (0 : Fin 1)) = ((whitPart R h.val : ℝ) : EReal)) :
    Host.reduceAdd (F := Ideal) A (constant (F := Ideal) S_ .f32 0#32) Facts₀.reducesTo_S2x1x1_S_d0_1_2 Facts₀.h_S_
      = Gwhit R := by
  funext idx
  rw [reduce_all_apply]
  simp only [hA, Pay.coe_sum, ← EReal.coe_add, whit_final R]
  rfl

end Cert.KernelIdeal.KTail

end
-- ==== Proof.KFinal.lean ====
/-
  From the buffers to the three results.  The first output array [2, 1024, 1024] ends holding, in its
  half `h`, what the last tile of half `h` wrote: that half's contribution to the first result; the two
  [2, 1, 1] arrays likewise.  The operations after the region add the two halves and, for the first
  result, subtract half the identity matrix.
-/
import proofs.«164931_j41618233099088_2_alg».proof.Proof.Gen.KernelIdeal.Frame
import proofs.«164931_j41618233099088_2_alg».proof.Proof.KAccum
import proofs.«164931_j41618233099088_2_alg».proof.Proof.KTail
import Idealize.ShloMosaic.Lib.Pipeline.Value
import Idealize.ShloMosaic.Lib.IdealHost
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Cert.KernelIdeal Cert.KernelIdeal.Gen Idealize.ShloMosaic.ValueIdx Cert.Decorr
open scoped BigOperators
namespace Cert.KernelIdeal.KFinal

variable (m : (ℓ : Loc nD τ sig) → Buf (Elt Ideal) ℓ) (c : Dev nD) (R : Fin 32768 → Fin 1024 → ℝ)

/-- What the three output arrays end holding. -/
def Agrad : Buf (Elt Ideal) ((c : Thread nD τ).loc main_v2_0) :=
  fun idx => ((gradPart R (idx 0).val (idx 1) (idx 2) : ℝ) : EReal)
def Acorr : Buf (Elt Ideal) ((c : Thread nD τ).loc main_v2_1) :=
  fun idx => ((corrPart R (idx 0).val : ℝ) : EReal)
def Awhit : Buf (Elt Ideal) ((c : Thread nD τ).loc main_v2_2) :=
  fun idx => ((whitPart R (idx 0).val : ℝ) : EReal)

/-- Where the output blocks sit: point `t` writes half `t / 8`, whole. -/
theorem out_blocks : ∀ t : Fin cfg0.N,
    (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N, _)

theorem out_sizes : ∀ t : Fin cfg0.N,
    (win0_1.xsize (grid0.coords t) (0 : Fin 3) = 1 ∧ win0_1.xsize (grid0.coords t) (1 : Fin 3) = 1024 ∧ win0_1.xsize (grid0.coords t) (2 : Fin 3) = 1024)
    ∧ (win0_2.xsize (grid0.coords t) (0 : Fin 3) = 1 ∧ win0_2.xsize (grid0.coords t) (1 : Fin 3) = 1 ∧ win0_2.xsize (grid0.coords t) (2 : Fin 3) = 1)
    ∧ (win0_3.xsize (grid0.coords t) (0 : Fin 3) = 1 ∧ win0_3.xsize (grid0.coords t) (1 : Fin 3) = 1 ∧ win0_3.xsize (grid0.coords t) (2 : Fin 3) = 1) :=
  (by decide +kernel : ∀ t : Fin grid0.N, _)

/-- The write-back of the first output at the last tile of a half is that half of `Agrad`. -/
theorem flushed_grad (hR : KAccum.Reads m c R) (t : Fin cfg0.N) (hf : (cfg0.win 1).flush t = true) :
    (dats m 0 c).flushed 1 t = ((cfg0.win 1).blk t).view.read (Elt Ideal) (Agrad c R) := by
  have h7 : t.val % 8 = 7 := (flush0_1 t).mp hf
  have hN : t.val < 16 := lt_of_lt_of_eq t.isLt (show cfg0.N = 16 from N_0)
  refine funext fun (y : S1x1024x1024.Idx) => ?_
  show (cfg0.win 1).cut (grid0.coords t) ((dats m 0 c).after 1 t) y = _
  rw [after0_1, View.read_apply]
  obtain ⟨i, j, rfl⟩ : ∃ i j : Fin 1024, y = ix3 (0 : Fin 1) i j :=
    ⟨y 1, y 2, funext fun a => match a with
      | ⟨0, _⟩ => Fin.ext (by have h : (y 0 : Nat) < 1 := (y 0).isLt; show (y 0 : Nat) = 0; omega)
      | ⟨1, _⟩ => rfl
      | ⟨2, _⟩ => rfl⟩
  show (outsAt0 m c t.val t.isLt).1 (ix3 (0 : Fin 1) i j) = Agrad c R (((cfg0.win 1).blk t).view.emb (ix3 (0 : Fin 1) i j))
  have hemb : ((cfg0.win 1).blk t).view.emb (ix3 (0 : Fin 1) i j) = (ix3 (⟨t.val / 8, by omega⟩ : Fin 2) i j : S2x1024x1024.Idx) := by
    obtain ⟨⟨h0, h1, h2⟩, -, -⟩ := out_blocks t
    funext a; apply Fin.ext
    match a with
    | ⟨0, _⟩ => show win0_1.index t 0 * 1 + 1 * 0 = t.val / 8; rw [h0]; omega
    | ⟨1, _⟩ => show win0_1.index t 1 * 1024 + 1 * i.val = i.val; rw [h1]; omega
    | ⟨2, _⟩ => show win0_1.index t 2 * 1024 + 1 * j.val = j.val; rw [h2]; omega
  rw [hemb]
  exact (KAccum.inv m c R hR t.val t.isLt).ograd h7 i j

/-- The write-back of the second output at the last tile of a half is that half of `Acorr`. -/
theorem flushed_corr (hR : KAccum.Reads m c R) (t : Fin cfg0.N) (hf : (cfg0.win 2).flush t = true) :
    (dats m 0 c).flushed 2 t = ((cfg0.win 2).blk t).view.read (Elt Ideal) (Acorr c R) := by
  have h7 : t.val % 8 = 7 := (flush0_2 t).mp hf
  have hN : t.val < 16 := lt_of_lt_of_eq t.isLt (show cfg0.N = 16 from N_0)
  refine funext fun (y : S1x1x1.Idx) => ?_
  show (cfg0.win 2).cut (grid0.coords t) ((dats m 0 c).after 2 t) y = _
  rw [after0_2, View.read_apply]
  obtain rfl : y = ix3 (0 : Fin 1) (0 : Fin 1) (0 : Fin 1) :=
    funext fun a => match a with
      | ⟨0, _⟩ => Fin.ext (by have h : (y 0 : Nat) < 1 := (y 0).isLt; show (y 0 : Nat) = 0; omega)
      | ⟨1, _⟩ => Fin.ext (by have h : (y 1 : Nat) < 1 := (y 1).isLt; show (y 1 : Nat) = 0; omega)
      | ⟨2, _⟩ => Fin.ext (by have h : (y 2 : Nat) < 1 := (y 2).isLt; show (y 2 : Nat) = 0; omega)
  show (outsAt0 m c t.val t.isLt).2.1 (ix3 (0 : Fin 1) (0 : Fin 1) (0 : Fin 1))
    = Acorr c R (((cfg0.win 2).blk t).view.emb (ix3 (0 : Fin 1) (0 : Fin 1) (0 : Fin 1)))
  have hemb : ((cfg0.win 2).blk t).view.emb (ix3 (0 : Fin 1) (0 : Fin 1) (0 : Fin 1))
      = (ix3 (⟨t.val / 8, by omega⟩ : Fin 2) (0 : Fin 1) (0 : Fin 1) : S2x1x1.Idx) := by
    obtain ⟨h0, h1, h2⟩ := (out_blocks t).2.1
    funext a; apply Fin.ext
    match a with
    | ⟨0, _⟩ => show win0_2.index t 0 * 1 + 1 * 0 = t.val / 8; rw [h0]; omega
    | ⟨1, _⟩ => show win0_2.index t 1 * 1 + 1 * 0 = 0; rw [h1]
    | ⟨2, _⟩ => show win0_2.index t 2 * 1 + 1 * 0 = 0; rw [h2]
  rw [hemb]
  exact (KAccum.inv m c R hR t.val t.isLt).ocorr h7

/-- The write-back of the third output at the last tile of a half is that half of `Awhit`. -/
theorem flushed_whit (hR : KAccum.Reads m c R) (t : Fin cfg0.N) (hf : (cfg0.win 3).flush t = true) :
    (dats m 0 c).flushed 3 t = ((cfg0.win 3).blk t).view.read (Elt Ideal) (Awhit c R) := by
  have h7 : t.val % 8 = 7 := (flush0_3 t).mp hf
  have hN : t.val < 16 := lt_of_lt_of_eq t.isLt (show cfg0.N = 16 from N_0)
  refine funext fun (y : S1x1x1.Idx) => ?_
  show (cfg0.win 3).cut (grid0.coords t) ((dats m 0 c).after 3 t) y = _
  rw [after0_3, View.read_apply]
  obtain rfl : y = ix3 (0 : Fin 1) (0 : Fin 1) (0 : Fin 1) :=
    funext fun a => match a with
      | ⟨0, _⟩ => Fin.ext (by have h : (y 0 : Nat) < 1 := (y 0).isLt; show (y 0 : Nat) = 0; omega)
      | ⟨1, _⟩ => Fin.ext (by have h : (y 1 : Nat) < 1 := (y 1).isLt; show (y 1 : Nat) = 0; omega)
      | ⟨2, _⟩ => Fin.ext (by have h : (y 2 : Nat) < 1 := (y 2).isLt; show (y 2 : Nat) = 0; omega)
  show (outsAt0 m c t.val t.isLt).2.2.1 (ix3 (0 : Fin 1) (0 : Fin 1) (0 : Fin 1))
    = Awhit c R (((cfg0.win 3).blk t).view.emb (ix3 (0 : Fin 1) (0 : Fin 1) (0 : Fin 1)))
  have hemb : ((cfg0.win 3).blk t).view.emb (ix3 (0 : Fin 1) (0 : Fin 1) (0 : Fin 1))
      = (ix3 (⟨t.val / 8, by omega⟩ : Fin 2) (0 : Fin 1) (0 : Fin 1) : S2x1x1.Idx) := by
    obtain ⟨h0, h1, h2⟩ := (out_blocks t).2.2
    funext a; apply Fin.ext
    match a with
    | ⟨0, _⟩ => show win0_3.index t 0 * 1 + 1 * 0 = t.val / 8; rw [h0]; omega
    | ⟨1, _⟩ => show win0_3.index t 1 * 1 + 1 * 0 = 0; rw [h1]
    | ⟨2, _⟩ => show win0_3.index t 2 * 1 + 1 * 0 = 0; rw [h2]
  rw [hemb]
  exact (KAccum.inv m c R hR t.val t.isLt).owhit h7

/-! ## The arrays after the region: each half is covered by its last tile's write-back -/

theorem final_grad (hR : KAccum.Reads m c R) : (dats m 0 c).arrAt 1 cfg0.N = Agrad c R :=
  (dats m 0 c).arrAt_eq_of_cover 1 (Agrad c R) (flushed_grad m c R hR) fun idx => by
    have hN : cfg0.N = 16 := N_0
    have i0 : (idx 0 : Nat) < 2 := (idx 0).isLt
    have i1 : (idx 1 : Nat) < 1024 := (idx 1).isLt
    have i2 : (idx 2 : Nat) < 1024 := (idx 2).isLt
    have ht : 8 * (idx 0 : Nat) + 7 < cfg0.N := by rw [hN]; omega
    refine ⟨⟨8 * (idx 0 : Nat) + 7, ht⟩, (flush0_1 _).mpr (by dsimp only; omega), ?_⟩
    show idx ∈ ((View.whole main_v2_0).slice (win0_1.rect ⟨8 * (idx 0 : Nat) + 7, ht⟩)).set
    rw [View.set_slice_whole, Rect.mem_set_unit]
    intro a
    obtain ⟨h0, h1, h2⟩ := (out_blocks ⟨8 * (idx 0 : Nat) + 7, ht⟩).1
    obtain ⟨s0, s1, s2⟩ := (out_sizes ⟨8 * (idx 0 : Nat) + 7, ht⟩).1
    match a with
    | ⟨0, _⟩ =>
      show win0_1.index ⟨8 * (idx 0 : Nat) + 7, ht⟩ 0 * win0_1.size 0 ≤ (idx 0 : Nat) ∧ (idx 0 : Nat) < win0_1.index ⟨8 * (idx 0 : Nat) + 7, ht⟩ 0 * win0_1.size 0 + win0_1.xsize (grid0.coords ⟨8 * (idx 0 : Nat) + 7, ht⟩) 0
      rw [h0, s0, show win0_1.size 0 = 1 from rfl]; dsimp only; omega
    | ⟨1, _⟩ =>
      show win0_1.index ⟨8 * (idx 0 : Nat) + 7, ht⟩ 1 * win0_1.size 1 ≤ (idx 1 : Nat) ∧ (idx 1 : Nat) < win0_1.index ⟨8 * (idx 0 : Nat) + 7, ht⟩ 1 * win0_1.size 1 + win0_1.xsize (grid0.coords ⟨8 * (idx 0 : Nat) + 7, ht⟩) 1
      rw [h1, s1]; omega
    | ⟨2, _⟩ =>
      show win0_1.index ⟨8 * (idx 0 : Nat) + 7, ht⟩ 2 * win0_1.size 2 ≤ (idx 2 : Nat) ∧ (idx 2 : Nat) < win0_1.index ⟨8 * (idx 0 : Nat) + 7, ht⟩ 2 * win0_1.size 2 + win0_1.xsize (grid0.coords ⟨8 * (idx 0 : Nat) + 7, ht⟩) 2
      rw [h2, s2]; omega

theorem final_corr (hR : KAccum.Reads m c R) : (dats m 0 c).arrAt 2 cfg0.N = Acorr c R :=
  (dats m 0 c).arrAt_eq_of_cover 2 (Acorr c R) (flushed_corr m c R hR) fun idx => by
    have hN : cfg0.N = 16 := N_0
    have i0 : (idx 0 : Nat) < 2 := (idx 0).isLt
    have i1 : (idx 1 : Nat) < 1 := (idx 1).isLt
    have i2 : (idx 2 : Nat) < 1 := (idx 2).isLt
    have ht : 8 * (idx 0 : Nat) + 7 < cfg0.N := by rw [hN]; omega
    refine ⟨⟨8 * (idx 0 : Nat) + 7, ht⟩, (flush0_2 _).mpr (by dsimp only; omega), ?_⟩
    show idx ∈ ((View.whole main_v2_1).slice (win0_2.rect ⟨8 * (idx 0 : Nat) + 7, ht⟩)).set
    rw [View.set_slice_whole, Rect.mem_set_unit]
    intro a
    obtain ⟨h0, h1, h2⟩ := (out_blocks ⟨8 * (idx 0 : Nat) + 7, ht⟩).2.1
    obtain ⟨s0, s1, s2⟩ := (out_sizes ⟨8 * (idx 0 : Nat) + 7, ht⟩).2.1
    match a with
    | ⟨0, _⟩ =>
      show win0_2.index ⟨8 * (idx 0 : Nat) + 7, ht⟩ 0 * win0_2.size 0 ≤ (idx 0 : Nat) ∧ (idx 0 : Nat) < win0_2.index ⟨8 * (idx 0 : Nat) + 7, ht⟩ 0 * win0_2.size 0 + win0_2.xsize (grid0.coords ⟨8 * (idx 0 : Nat) + 7, ht⟩) 0
      rw [h0, s0, show win0_2.size 0 = 1 from rfl]; dsimp only; omega
    | ⟨1, _⟩ =>
      show win0_2.index ⟨8 * (idx 0 : Nat) + 7, ht⟩ 1 * win0_2.size 1 ≤ (idx 1 : Nat) ∧ (idx 1 : Nat) < win0_2.index ⟨8 * (idx 0 : Nat) + 7, ht⟩ 1 * win0_2.size 1 + win0_2.xsize (grid0.coords ⟨8 * (idx 0 : Nat) + 7, ht⟩) 1
      rw [h1, s1]; omega
    | ⟨2, _⟩ =>
      show win0_2.index ⟨8 * (idx 0 : Nat) + 7, ht⟩ 2 * win0_2.size 2 ≤ (idx 2 : Nat) ∧ (idx 2 : Nat) < win0_2.index ⟨8 * (idx 0 : Nat) + 7, ht⟩ 2 * win0_2.size 2 + win0_2.xsize (grid0.coords ⟨8 * (idx 0 : Nat) + 7, ht⟩) 2
      rw [h2, s2]; omega

theorem final_whit (hR : KAccum.Reads m c R) : (dats m 0 c).arrAt 3 cfg0.N = Awhit c R :=
  (dats m 0 c).arrAt_eq_of_cover 3 (Awhit c R) (flushed_whit m c R hR) fun idx => by
    have hN : cfg0.N = 16 := N_0
    have i0 : (idx 0 : Nat) < 2 := (idx 0).isLt
    have i1 : (idx 1 : Nat) < 1 := (idx 1).isLt
    have i2 : (idx 2 : Nat) < 1 := (idx 2).isLt
    have ht : 8 * (idx 0 : Nat) + 7 < cfg0.N := by rw [hN]; omega
    refine ⟨⟨8 * (idx 0 : Nat) + 7, ht⟩, (flush0_3 _).mpr (by dsimp only; omega), ?_⟩
    show idx ∈ ((View.whole main_v2_2).slice (win0_3.rect ⟨8 * (idx 0 : Nat) + 7, ht⟩)).set
    rw [View.set_slice_whole, Rect.mem_set_unit]
    intro a
    obtain ⟨h0, h1, h2⟩ := (out_blocks ⟨8 * (idx 0 : Nat) + 7, ht⟩).2.2
    obtain ⟨s0, s1, s2⟩ := (out_sizes ⟨8 * (idx 0 : Nat) + 7, ht⟩).2.2
    match a with
    | ⟨0, _⟩ =>
      show win0_3.index ⟨8 * (idx 0 : Nat) + 7, ht⟩ 0 * win0_3.size 0 ≤ (idx 0 : Nat) ∧ (idx 0 : Nat) < win0_3.index ⟨8 * (idx 0 : Nat) + 7, ht⟩ 0 * win0_3.size 0 + win0_3.xsize (grid0.coords ⟨8 * (idx 0 : Nat) + 7, ht⟩) 0
      rw [h0, s0, show win0_3.size 0 = 1 from rfl]; dsimp only; omega
    | ⟨1, _⟩ =>
      show win0_3.index ⟨8 * (idx 0 : Nat) + 7, ht⟩ 1 * win0_3.size 1 ≤ (idx 1 : Nat) ∧ (idx 1 : Nat) < win0_3.index ⟨8 * (idx 0 : Nat) + 7, ht⟩ 1 * win0_3.size 1 + win0_3.xsize (grid0.coords ⟨8 * (idx 0 : Nat) + 7, ht⟩) 1
      rw [h1, s1]; omega
    | ⟨2, _⟩ =>
      show win0_3.index ⟨8 * (idx 0 : Nat) + 7, ht⟩ 2 * win0_3.size 2 ≤ (idx 2 : Nat) ∧ (idx 2 : Nat) < win0_3.index ⟨8 * (idx 0 : Nat) + 7, ht⟩ 2 * win0_3.size 2 + win0_3.xsize (grid0.coords ⟨8 * (idx 0 : Nat) + 7, ht⟩) 2
      rw [h2, s2]; omega

/-! ## The operations after the region -/

theorem tail_grad (hR : KAccum.Reads m c R) :
    Pipeline.afterTail₀ cfgs (dats m) 0 (V0 m) [hostOps1] c main_v12 = Ggrad R := by
  have hA : Pipeline.withArrays (cfgs 0).spec c (V0 m c) (fun w => (dats m 0 c).arrAt w (cfgs 0).N) (Proc.devRef .tc main_v2_0) = Agrad c R :=
    (Pipeline.withArrays_arr spec0 launch0.win.arr_inj c _ _ 1).trans (final_grad m c R hR)
  unfold Pipeline.afterTail₀
  show StableHlo.after hostOps1 _ (Proc.devRef .tc main_v12) = _
  after_results
  rw [hA]
  exact KTail.tail_grad_value (Agrad c R) R (fun _ _ _ => rfl)

theorem tail_corr (hR : KAccum.Reads m c R) :
    Pipeline.afterTail₀ cfgs (dats m) 0 (V0 m) [hostOps1] c main_v13 = Gcorr R := by
  have hA : Pipeline.withArrays (cfgs 0).spec c (V0 m c) (fun w => (dats m 0 c).arrAt w (cfgs 0).N) (Proc.devRef .tc main_v2_1) = Acorr c R :=
    (Pipeline.withArrays_arr spec0 launch0.win.arr_inj c _ _ 2).trans (final_corr m c R hR)
  unfold Pipeline.afterTail₀
  show StableHlo.after hostOps1 _ (Proc.devRef .tc main_v13) = _
  after_results
  rw [hA]
  exact KTail.tail_corr_value (Acorr c R) R (fun _ => rfl)

theorem tail_whit (hR : KAccum.Reads m c R) :
    Pipeline.afterTail₀ cfgs (dats m) 0 (V0 m) [hostOps1] c main_v14 = Gwhit R := by
  have hA : Pipeline.withArrays (cfgs 0).spec c (V0 m c) (fun w => (dats m 0 c).arrAt w (cfgs 0).N) (Proc.devRef .tc main_v2_2) = Awhit c R :=
    (Pipeline.withArrays_arr spec0 launch0.win.arr_inj c _ _ 3).trans (final_whit m c R hR)
  unfold Pipeline.afterTail₀
  show StableHlo.after hostOps1 _ (Proc.devRef .tc main_v14) = _
  after_results
  rw [hA]
  exact KTail.tail_whit_value (Awhit c R) R (fun _ => rfl)

end Cert.KernelIdeal.KFinal

end
-- ==== Proof.RefRun.lean ====
/-
  The reference program's @main as a list of its 67 host operations, and its run read back: every weakly fair
  execution terminates with each buffer at the fold of the operations' results over the launch contents.

  @main calls the module-local function `_diag` once (which calls `_where` once); a call executes the callee's
  body on the operands, so the callee's ten operations, and within them `_where`'s three, stand in the list at the
  call site, over the buffers of the call's record.
-/
import proofs.«164931_j41618233099088_2_alg».proof.ReferenceIdeal
import proofs.«164931_j41618233099088_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 67 operations in order, the two calls unfolded: @main's first twenty-eight, then `_diag`'s ten over
    the record `main_call0` (its argument the buffer of %18) with `_where`'s three over `main_call0.call0` (the
    select writes the buffer of %21), then @main's remaining twenty-six. -/
abbrev ops : List (HloOp τ sig (Elt F)) :=
  [
    StableHlo.reshape main_arg0 main_v0 rfl shapeCasts_S8x4096x1024_S32768x1024,
    StableHlo.binary main_v0 main_v0 main_v1 ((fun l r => Host.dotGeneral dot_S32768x1024_S32768x1024_S1024x1024_0_0_1_1_n_n none l r) : (⟨S32768x1024, .f32⟩ : BufTy).Contents (Elt F) → (⟨S32768x1024, .f32⟩ : BufTy).Contents (Elt F) → (⟨S1024x1024, .f32⟩ : BufTy).Contents (Elt F)),
    StableHlo.nullary main_cst (constant S_ .f32 0x47000000#32),
    StableHlo.unary main_cst main_v2 (broadcastInDim S1024x1024 ![] bcast_S_S1024x1024 : (⟨S_, .f32⟩ : BufTy).Contents (Elt F) → (⟨S1024x1024, .f32⟩ : BufTy).Contents (Elt F)),
    StableHlo.binary main_v1 main_v2 main_v3 (Host.divf : (⟨S1024x1024, .f32⟩ : BufTy).Contents (Elt F) → (⟨S1024x1024, .f32⟩ : BufTy).Contents (Elt F) → (⟨S1024x1024, .f32⟩ : BufTy).Contents (Elt F)),
    StableHlo.nullary main_v4 (iotaInDim S1024x1024 32 0),
    StableHlo.nullary main_v5 (iotaInDim S1024x1024 32 1),
    StableHlo.nullary main_c (constantI S_ 32 0#32),
    StableHlo.unary main_c main_v6 (broadcastInDim S1024x1024 ![] bcast_S_S1024x1024 : (⟨S_, .i32⟩ : BufTy).Contents (Elt F) → (⟨S1024x1024, .i32⟩ : BufTy).Contents (Elt F)),
    StableHlo.binary main_v4 main_v6 main_v7 (addi : (⟨S1024x1024, .i32⟩ : BufTy).Contents (Elt F) → (⟨S1024x1024, .i32⟩ : BufTy).Contents (Elt F) → (⟨S1024x1024, .i32⟩ : BufTy).Contents (Elt F)),
    StableHlo.binary main_v7 main_v5 main_v8 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v8 main_v9 (uitofp .f32 : (⟨S1024x1024, .i1⟩ : BufTy).Contents (Elt F) → (⟨S1024x1024, .f32⟩ : BufTy).Contents (Elt F)),
    StableHlo.nullary main_cst_0 (constant S_ .f32 0x3F800000#32),
    StableHlo.unary main_cst_0 main_v10 (broadcastInDim S1024x1024 ![] bcast_S_S1024x1024 : (⟨S_, .f32⟩ : BufTy).Contents (Elt F) → (⟨S1024x1024, .f32⟩ : BufTy).Contents (Elt F)),
    StableHlo.binary main_v10 main_v9 main_v11 (subf : (⟨S1024x1024, .f32⟩ : BufTy).Contents (Elt F) → (⟨S1024x1024, .f32⟩ : BufTy).Contents (Elt F) → (⟨S1024x1024, .f32⟩ : BufTy).Contents (Elt F)),
    StableHlo.binary main_v3 main_v11 main_v12 (mulf : (⟨S1024x1024, .f32⟩ : BufTy).Contents (Elt F) → (⟨S1024x1024, .f32⟩ : BufTy).Contents (Elt F) → (⟨S1024x1024, .f32⟩ : BufTy).Contents (Elt F)),
    StableHlo.binary main_v0 main_v0 main_v13 (mulf : (⟨S32768x1024, .f32⟩ : BufTy).Contents (Elt F) → (⟨S32768x1024, .f32⟩ : BufTy).Contents (Elt F) → (⟨S32768x1024, .f32⟩ : BufTy).Contents (Elt F)),
    StableHlo.nullary main_cst_1 (constant S_ .f32 0x00000000#32),
    StableHlo.binary main_v13 main_cst_1 main_v14 ((fun x v => Host.reduceAdd x v reducesTo_S32768x1024_S1024_d0 h_S_) : (⟨S32768x1024, .f32⟩ : BufTy).Contents (Elt F) → (⟨S_, .f32⟩ : BufTy).Contents (Elt F) → (⟨S1024, .f32⟩ : BufTy).Contents (Elt F)),
    StableHlo.nullary main_cst_2 (constant S_ .f32 0x47000000#32),
    StableHlo.unary main_cst_2 main_v15 (broadcastInDim S1024 ![] bcast_S_S1024 : (⟨S_, .f32⟩ : BufTy).Contents (Elt F) → (⟨S1024, .f32⟩ : BufTy).Contents (Elt F)),
    StableHlo.binary main_v14 main_v15 main_v16 (Host.divf : (⟨S1024, .f32⟩ : BufTy).Contents (Elt F) → (⟨S1024, .f32⟩ : BufTy).Contents (Elt F) → (⟨S1024, .f32⟩ : BufTy).Contents (Elt F)),
    StableHlo.nullary main_cst_3 (constant S_ .f32 0x3F800000#32),
    StableHlo.unary main_cst_3 main_v17 (broadcastInDim S1024 ![] bcast_S_S1024 : (⟨S_, .f32⟩ : BufTy).Contents (Elt F) → (⟨S1024, .f32⟩ : BufTy).Contents (Elt F)),
    StableHlo.binary main_v16 main_v17 main_v18 (subf : (⟨S1024, .f32⟩ : BufTy).Contents (Elt F) → (⟨S1024, .f32⟩ : BufTy).Contents (Elt F) → (⟨S1024, .f32⟩ : BufTy).Contents (Elt F)),
    StableHlo.nullary main_cst_4 (constant S_ .f32 0x3F000000#32),
    StableHlo.unary main_cst_4 main_v19 (broadcastInDim S1024x1024 ![] bcast_S_S1024x1024 : (⟨S_, .f32⟩ : BufTy).Contents (Elt F) → (⟨S1024x1024, .f32⟩ : BufTy).Contents (Elt F)),
    StableHlo.binary main_v19 main_v12 main_v20 (mulf : (⟨S1024x1024, .f32⟩ : BufTy).Contents (Elt F) → (⟨S1024x1024, .f32⟩ : BufTy).Contents (Elt F) → (⟨S1024x1024, .f32⟩ : BufTy).Contents (Elt F)),
    StableHlo.TRef.nullary main_call0.cst (constant S_ .f32 0x00000000#32),
    StableHlo.TRef.binary (.of main_v18) main_call0.cst main_call0.v0 (fun x v => pad S1024 ![0] ![0] ![0] x v pads_S1024_S1024_000 h_S_),
    StableHlo.TRef.nullary main_call0.v1 (iotaInDim S1024x1024 32 0),
    StableHlo.TRef.nullary main_call0.v2 (iotaInDim S1024x1024 32 1),
    StableHlo.TRef.nullary main_call0.c (constantI S_ 32 0#32),
    StableHlo.TRef.unary main_call0.c main_call0.v3 (broadcastInDim S1024x1024 ![] bcast_S_S1024x1024),
    StableHlo.TRef.binary main_call0.v1 main_call0.v3 main_call0.v4 addi,
    StableHlo.TRef.binary main_call0.v4 main_call0.v2 main_call0.v5 (cmpi .eq),
    StableHlo.TRef.unary main_call0.v0 main_call0.v6 (broadcastInDim S1024x1 ![0] bcast_S1024_S1024x1_0),
    StableHlo.TRef.nullary main_call0.cst_0 (constant S_ .f32 0x00000000#32),
    StableHlo.TRef.unary main_call0.v6 main_call0.call0.v0 (broadcastInDim S1024x1024 ![0, 1] bcast_S1024x1_S1024x1024_0_1),
    StableHlo.TRef.unary main_call0.cst_0 main_call0.call0.v1 (broadcastInDim S1024x1024 ![] bcast_S_S1024x1024),
    StableHlo.TRef.ternary main_call0.v5 main_call0.call0.v0 main_call0.call0.v1 main_call0.call0.v2 select,
    StableHlo.nullary main_cst_5 (constant S_ .f32 0x3F000000#32),
    StableHlo.unary main_cst_5 main_v22 (broadcastInDim S1024x1024 ![] bcast_S_S1024x1024 : (⟨S_, .f32⟩ : BufTy).Contents (Elt F) → (⟨S1024x1024, .f32⟩ : BufTy).Contents (Elt F)),
    StableHlo.binary main_v22 main_v21 main_v23 (mulf : (⟨S1024x1024, .f32⟩ : BufTy).Contents (Elt F) → (⟨S1024x1024, .f32⟩ : BufTy).Contents (Elt F) → (⟨S1024x1024, .f32⟩ : BufTy).Contents (Elt F)),
    StableHlo.binary main_v20 main_v23 main_v24 (addf : (⟨S1024x1024, .f32⟩ : BufTy).Contents (Elt F) → (⟨S1024x1024, .f32⟩ : BufTy).Contents (Elt F) → (⟨S1024x1024, .f32⟩ : BufTy).Contents (Elt F)),
    StableHlo.binary main_v0 main_v0 main_v25 (mulf : (⟨S32768x1024, .f32⟩ : BufTy).Contents (Elt F) → (⟨S32768x1024, .f32⟩ : BufTy).Contents (Elt F) → (⟨S32768x1024, .f32⟩ : BufTy).Contents (Elt F)),
    StableHlo.nullary main_cst_6 (constant S_ .f32 0x00000000#32),
    StableHlo.binary main_v25 main_cst_6 main_v26 ((fun x v => Host.reduceAdd x v reducesTo_S32768x1024_S32768_d1 h_S_) : (⟨S32768x1024, .f32⟩ : BufTy).Contents (Elt F) → (⟨S_, .f32⟩ : BufTy).Contents (Elt F) → (⟨S32768, .f32⟩ : BufTy).Contents (Elt F)),
    StableHlo.binary main_v25 main_v25 main_v27 (mulf : (⟨S32768x1024, .f32⟩ : BufTy).Contents (Elt F) → (⟨S32768x1024, .f32⟩ : BufTy).Contents (Elt F) → (⟨S32768x1024, .f32⟩ : BufTy).Contents (Elt F)),
    StableHlo.nullary main_cst_7 (constant S_ .f32 0x00000000#32),
    StableHlo.binary main_v27 main_cst_7 main_v28 ((fun x v => Host.reduceAdd x v reducesTo_S32768x1024_S32768_d1 h_S_) : (⟨S32768x1024, .f32⟩ : BufTy).Contents (Elt F) → (⟨S_, .f32⟩ : BufTy).Contents (Elt F) → (⟨S32768, .f32⟩ : BufTy).Contents (Elt F)),
    StableHlo.binary main_v26 main_v26 main_v29 (mulf : (⟨S32768, .f32⟩ : BufTy).Contents (Elt F) → (⟨S32768, .f32⟩ : BufTy).Contents (Elt F) → (⟨S32768, .f32⟩ : BufTy).Contents (Elt F)),
    StableHlo.binary main_v29 main_v28 main_v30 (subf : (⟨S32768, .f32⟩ : BufTy).Contents (Elt F) → (⟨S32768, .f32⟩ : BufTy).Contents (Elt F) → (⟨S32768, .f32⟩ : BufTy).Contents (Elt F)),
    StableHlo.nullary main_cst_8 (constant S_ .f32 0x00000000#32),
    StableHlo.binary main_v30 main_cst_8 main_v31 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_cst_9 (constant S_ .f32 0x47000000#32),
    StableHlo.binary main_v31 main_cst_9 main_v32 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x49800000#32),
    StableHlo.binary main_v32 main_cst_10 main_v33 (Host.divf : (⟨S_, .f32⟩ : BufTy).Contents (Elt F) → (⟨S_, .f32⟩ : BufTy).Contents (Elt F) → (⟨S_, .f32⟩ : BufTy).Contents (Elt F)),
    StableHlo.nullary main_cst_11 (constant S_ .f32 0x3F800000#32),
    StableHlo.unary main_cst_11 main_v34 (broadcastInDim S32768x1024 ![] bcast_S_S32768x1024 : (⟨S_, .f32⟩ : BufTy).Contents (Elt F) → (⟨S32768x1024, .f32⟩ : BufTy).Contents (Elt F)),
    StableHlo.binary main_v25 main_v34 main_v35 (subf : (⟨S32768x1024, .f32⟩ : BufTy).Contents (Elt F) → (⟨S32768x1024, .f32⟩ : BufTy).Contents (Elt F) → (⟨S32768x1024, .f32⟩ : BufTy).Contents (Elt F)),
    StableHlo.binary main_v35 main_v35 main_v36 (mulf : (⟨S32768x1024, .f32⟩ : BufTy).Contents (Elt F) → (⟨S32768x1024, .f32⟩ : BufTy).Contents (Elt F) → (⟨S32768x1024, .f32⟩ : BufTy).Contents (Elt F)),
    StableHlo.nullary main_cst_12 (constant S_ .f32 0x00000000#32),
    StableHlo.binary main_v36 main_cst_12 main_v37 ((fun x v => Host.reduceAdd x v reducesTo_S32768x1024_S_d0_1 h_S_) : (⟨S32768x1024, .f32⟩ : BufTy).Contents (Elt F) → (⟨S_, .f32⟩ : BufTy).Contents (Elt F) → (⟨S_, .f32⟩ : BufTy).Contents (Elt F)),
    StableHlo.nullary main_cst_13 (constant S_ .f32 0x4C000000#32),
    StableHlo.binary main_v37 main_cst_13 main_v38 (Host.divf : (⟨S_, .f32⟩ : BufTy).Contents (Elt F) → (⟨S_, .f32⟩ : BufTy).Contents (Elt F) → (⟨S_, .f32⟩ : BufTy).Contents (Elt F)) ]

-- the sixty-seven steps are one chain once their sequencing is re-associated
set_option maxRecDepth 2048 in
/-- @main is that straight line: the two functions' definitions unfolded at their calls, both sides are one chain
    of `hlo` steps once sequencing is re-associated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    reshape_bufs_sub .., binary_bufs_sub .., nullary_bufs_sub .., unary_bufs_sub .., binary_bufs_sub .., nullary_bufs_sub ..,
    nullary_bufs_sub .., nullary_bufs_sub .., unary_bufs_sub .., binary_bufs_sub .., binary_bufs_sub .., unary_bufs_sub ..,
    nullary_bufs_sub .., unary_bufs_sub .., binary_bufs_sub .., binary_bufs_sub .., binary_bufs_sub .., nullary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    nullary_bufs_sub .., nullary_bufs_sub .., nullary_bufs_sub .., unary_bufs_sub .., binary_bufs_sub .., binary_bufs_sub ..,
    unary_bufs_sub .., nullary_bufs_sub .., unary_bufs_sub .., unary_bufs_sub .., ternary_bufs_sub .., nullary_bufs_sub ..,
    unary_bufs_sub .., binary_bufs_sub .., binary_bufs_sub .., binary_bufs_sub .., nullary_bufs_sub .., binary_bufs_sub ..,
    binary_bufs_sub .., nullary_bufs_sub .., binary_bufs_sub .., binary_bufs_sub .., binary_bufs_sub .., nullary_bufs_sub ..,
    binary_bufs_sub .., nullary_bufs_sub .., binary_bufs_sub .., nullary_bufs_sub .., binary_bufs_sub .., nullary_bufs_sub ..,
    unary_bufs_sub .., binary_bufs_sub .., binary_bufs_sub .., nullary_bufs_sub .., binary_bufs_sub .., nullary_bufs_sub ..,
    binary_bufs_sub ..⟩

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerms.lean ====
/-
  The reference program's three results as functions of its flattened input: the terms its operations compose,
  with the shared subterms named.

  With `X` the input read as a matrix of 32768 rows and 1024 columns:
  * `resGrad X`: half of `(Xᵀ X / 32768) ⊙ (1 − I)`, plus half of the diagonal matrix of the column means of
    squares minus one;
  * `resCorr X`: the sum over rows of `(Σ_j x_j²)² − Σ_j x_j⁴`, divided by 32768 and then by 1048576;
  * `resWhit X`: the sum over all entries of `(x² − 1)²`, divided by 33554432.
-/
import proofs.«164931_j41618233099088_2_alg».proof.ReferenceIdeal
import proofs.«164931_j41618233099088_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The argument read as a matrix of 32768 rows: the same elements in row-major order. -/
def Xof (x : FVec Ideal S8x4096x1024 .f32) : FVec Ideal S32768x1024 .f32 :=
  shapeCast S32768x1024 x shapeCasts_S8x4096x1024_S32768x1024

/-- The entrywise squares. -/
def sq (X : FVec Ideal S32768x1024 .f32) : FVec Ideal S32768x1024 .f32 := mulf X X

/-- The mask of the diagonal: row number equal to column number, as 32-bit words. -/
def eqMask : IVec S1024x1024 1 :=
  cmpi .eq (addi (iotaInDim S1024x1024 32 0) (broadcastInDim S1024x1024 ![] bcast_S_S1024x1024 (constantI S_ 32 0#32)))
    (iotaInDim S1024x1024 32 1)

/-- Per column: the sum of squares over the rows, divided by 32768, minus one. -/
def colMeanM1 (X : FVec Ideal S32768x1024 .f32) : FVec Ideal S1024 .f32 :=
  subf
    (Host.divf (F := Ideal)
      (Host.reduceAdd (F := Ideal) (sq X) (constant (F := Ideal) S_ .f32 0x00000000#32) reducesTo_S32768x1024_S1024_d0 h_S_)
      (broadcastInDim S1024 ![] bcast_S_S1024 (constant (F := Ideal) S_ .f32 0x47000000#32)))
    (broadcastInDim S1024 ![] bcast_S_S1024 (constant (F := Ideal) S_ .f32 0x3F800000#32))

/-- The diagonal matrix of that vector: the vector's entry of the row on the diagonal, zero elsewhere. -/
def diagArr (X : FVec Ideal S32768x1024 .f32) : FVec Ideal S1024x1024 .f32 :=
  select eqMask
    (broadcastInDim S1024x1024 ![0, 1] bcast_S1024x1_S1024x1024_0_1
      (broadcastInDim S1024x1 ![0] bcast_S1024_S1024x1_0
        (pad S1024 ![0] ![0] ![0] (colMeanM1 X) (constant (F := Ideal) S_ .f32 0x00000000#32) pads_S1024_S1024_000 h_S_)))
    (broadcastInDim S1024x1024 ![] bcast_S_S1024x1024 (constant (F := Ideal) S_ .f32 0x00000000#32))

/-- The first result. -/
def resGrad (X : FVec Ideal S32768x1024 .f32) : FVec Ideal S1024x1024 .f32 :=
  addf
    (mulf (broadcastInDim S1024x1024 ![] bcast_S_S1024x1024 (constant (F := Ideal) S_ .f32 0x3F000000#32))
      (mulf
        (Host.divf (F := Ideal)
          (Host.dotGeneral (F := Ideal) dot_S32768x1024_S32768x1024_S1024x1024_0_0_1_1_n_n none X X)
          (broadcastInDim S1024x1024 ![] bcast_S_S1024x1024 (constant (F := Ideal) S_ .f32 0x47000000#32)))
        (subf (broadcastInDim S1024x1024 ![] bcast_S_S1024x1024 (constant (F := Ideal) S_ .f32 0x3F800000#32))
          (uitofp (F := Ideal) .f32 eqMask))))
    (mulf (broadcastInDim S1024x1024 ![] bcast_S_S1024x1024 (constant (F := Ideal) S_ .f32 0x3F000000#32)) (diagArr X))

/-- Per row: the sum of squares over the columns. -/
def rowSq (X : FVec Ideal S32768x1024 .f32) : FVec Ideal S32768 .f32 :=
  Host.reduceAdd (F := Ideal) (sq X) (constant (F := Ideal) S_ .f32 0x00000000#32) reducesTo_S32768x1024_S32768_d1 h_S_

/-- Per row: the sum of fourth powers over the columns. -/
def rowQuad (X : FVec Ideal S32768x1024 .f32) : FVec Ideal S32768 .f32 :=
  Host.reduceAdd (F := Ideal) (mulf (sq X) (sq X)) (constant (F := Ideal) S_ .f32 0x00000000#32)
    reducesTo_S32768x1024_S32768_d1 h_S_

/-- The second result. -/
def resCorr (X : FVec Ideal S32768x1024 .f32) : FVec Ideal S_ .f32 :=
  Host.divf (F := Ideal)
    (Host.divf (F := Ideal)
      (Host.reduceAdd (F := Ideal) (subf (mulf (rowSq X) (rowSq X)) (rowQuad X))
        (constant (F := Ideal) S_ .f32 0x00000000#32) reducesTo_S32768_S_d0 h_S_)
      (constant (F := Ideal) S_ .f32 0x47000000#32))
    (constant (F := Ideal) S_ .f32 0x49800000#32)

/-- The entrywise squares minus one. -/
def sqM1 (X : FVec Ideal S32768x1024 .f32) : FVec Ideal S32768x1024 .f32 :=
  subf (sq X) (broadcastInDim S32768x1024 ![] bcast_S_S32768x1024 (constant (F := Ideal) S_ .f32 0x3F800000#32))

/-- The third result. -/
def resWhit (X : FVec Ideal S32768x1024 .f32) : FVec Ideal S_ .f32 :=
  Host.divf (F := Ideal)
    (Host.reduceAdd (F := Ideal) (mulf (sqM1 X) (sqM1 X)) (constant (F := Ideal) S_ .f32 0x00000000#32)
      reducesTo_S32768x1024_S_d0_1 h_S_)
    (constant (F := Ideal) S_ .f32 0x4C000000#32)

end Cert.ReferenceIdeal.RefValue

end
-- ==== Proof.RefValue.lean ====
/-
  The reference program's run, stated over its three results as functions of the flattened input.
-/
import proofs.«164931_j41618233099088_2_alg».proof.Proof.RefRun
import proofs.«164931_j41618233099088_2_alg».proof.Proof.RefTerms

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo

/-- After the sixty-seven operations the buffer of %24 holds the first result's term of the argument. -/
theorem after_v24 (V : Valuation τ sig (Elt Ideal)) :
    after (ops (F := Ideal)) V (main_v24 : DevRef τ sig) = resGrad (Xof (V (main_arg0 : DevRef τ sig))) := by
  after_results_simp
  rfl

/-- … the buffer of %33 the second result's. -/
theorem after_v33 (V : Valuation τ sig (Elt Ideal)) :
    after (ops (F := Ideal)) V (main_v33 : DevRef τ sig) = resCorr (Xof (V (main_arg0 : DevRef τ sig))) := by
  after_results_simp
  rfl

/-- … the buffer of %38 the third result's. -/
theorem after_v38 (V : Valuation τ sig (Elt Ideal)) :
    after (ops (F := Ideal)) V (main_v38 : DevRef τ sig) = resWhit (Xof (V (main_arg0 : DevRef τ sig))) := by
  after_results_simp
  rfl

/-- … and the argument's buffer what it held: no operation writes it. -/
theorem after_arg0 (V : Valuation τ sig (Elt Ideal)) :
    after (ops (F := Ideal)) V (main_arg0 : DevRef τ sig) = V (main_arg0 : DevRef τ sig) := by
  after_results_simp

/-- On every device, from any memory with zero counters: every weakly fair execution of @main terminates with the
    three result buffers at the three results' terms of the argument's launch contents, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v24) = resGrad (Xof (m ((c.tc : Thread nD τ).loc main_arg0)))
      ∧ r.2.mem ((c.tc : Thread nD τ).loc main_v33) = resCorr (Xof (m ((c.tc : Thread nD τ).loc main_arg0)))
      ∧ r.2.mem ((c.tc : Thread nD τ).loc main_v38) = resWhit (Xof (m ((c.tc : Thread nD τ).loc main_arg0)))
      ∧ r.2.mem ((c.tc : Thread nD τ).loc main_arg0) = m ((c.tc : Thread nD τ).loc main_arg0)) :=
  (θ_run defs _ _).mono (fun _ h c => ⟨(h c main_v24).trans (after_v24 _), (h c main_v33).trans (after_v33 _),
      (h c main_v38).trans (after_v38 _), (h c main_arg0).trans (after_arg0 _)⟩)
    (run_main m ρ)

end Cert.ReferenceIdeal.RefValue

end
-- ==== Proof.RefReads.lean ====
/-
  The reference's operations that are not pointwise, read at an index of the literal shapes:
  the product `Xᵀ X` as a sum over the rows, the four reductions as sums over the coordinates they drop,
  a scalar's broadcast, the vector laid on the rows of a square array (pad by nothing, then two broadcasts),
  and the diagonal's mask bit.
-/
import proofs.«164931_j41618233099088_2_alg».proof.ReferenceIdeal
import proofs.«164931_j41618233099088_2_alg».proof.Proof.Gen.ReferenceIdeal
import proofs.«164931_j41618233099088_2_alg».proof.Proof.LibEye
import Idealize.ShloMosaic.PureOps.Ideal.Laws
import Idealize.ShloMosaic.Lib.ValueIdx
import Idealize.ShloMosaic.Lib.IdealHost
import Idealize.ShloMosaic.Lib.Pipeline.Value
import Idealize.ShloMosaic.Lib.KernelVsHost

noncomputable section

open scoped BigOperators

namespace Cert.ReferenceIdeal.RefReads

open Cert.ReferenceIdeal Cert.ReferenceIdeal.Gen Idealize.ShloMosaic Idealize.ShloMosaic.ValueIdx

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A scalar constant broadcast to any shape reads the constant's value everywhere. -/
theorem bcast_const_apply {T : Shape} (h : S_.BroadcastsInDim T (![] : Fin 0 → Fin T.rank)) (w : BitVec 32) (j : T.Idx) :
    broadcastInDim T ![] h (constant (F := Ideal) S_ .f32 w) j = Ideal.ofBits .f32 w :=
  broadcastInDim_scalar_apply h _ j

/-! ## The product `Xᵀ X` -/

/-- The left operand's index at output `(i, j)` and contraction position `m` is `(m, i)`. -/
theorem lhs_idx (i j : Fin 1024) (m : Fin 32768) :
    dot_S32768x1024_S32768x1024_S1024x1024_0_0_1_1_n_n.lhsIdx (ix2 i j) ((contrEquiv1 dot_S32768x1024_S32768x1024_S1024x1024_0_0_1_1_n_n 32768 rfl rfl).symm m) = ix2 m i := by
  funext a
  apply Fin.ext
  match a with
  | ⟨0, _⟩ =>
    exact (DotDims.lhsIdx_val_of_single dot_S32768x1024_S32768x1024_S1024x1024_0_0_1_1_n_n (cl := (0 : Fin 2)) rfl _ _).trans
      (contrEquiv1_symm_val dot_S32768x1024_S32768x1024_S1024x1024_0_0_1_1_n_n 32768 rfl rfl m)
  | ⟨1, _⟩ => rfl

/-- The right operand's is `(m, j)`. -/
theorem rhs_idx (i j : Fin 1024) (m : Fin 32768) :
    dot_S32768x1024_S32768x1024_S1024x1024_0_0_1_1_n_n.rhsIdx (ix2 i j) ((contrEquiv1 dot_S32768x1024_S32768x1024_S1024x1024_0_0_1_1_n_n 32768 rfl rfl).symm m) = ix2 m j := by
  funext a
  apply Fin.ext
  match a with
  | ⟨0, _⟩ =>
    exact (DotDims.rhsIdx_val_of_single dot_S32768x1024_S32768x1024_S1024x1024_0_0_1_1_n_n (cr := (0 : Fin 2)) rfl _ _).trans
      (contrEquiv1_symm_val dot_S32768x1024_S32768x1024_S1024x1024_0_0_1_1_n_n 32768 rfl rfl m)
  | ⟨1, _⟩ => rfl

/-- The product contracting the rows of both operands, at `(i, j)`: the sum over the rows of the products of
    columns `i` and `j`. -/
theorem gram_read (X Y : FVec Ideal S32768x1024 .f32) (i j : Fin 1024) :
    Host.dotGeneral (F := Ideal) dot_S32768x1024_S32768x1024_S1024x1024_0_0_1_1_n_n none X Y (ix2 i j) = ∑ m : Fin 32768, X (ix2 m i) * Y (ix2 m j) := by
  show FloatOps.dotGeneral dot_S32768x1024_S32768x1024_S1024x1024_0_0_1_1_n_n none .single X Y (ix2 i j) = _
  rw [Ideal.dotGeneral_apply, ← Equiv.sum_comp (contrEquiv1 dot_S32768x1024_S32768x1024_S1024x1024_0_0_1_1_n_n 32768 rfl rfl).symm]
  refine Finset.sum_congr rfl fun m _ => ?_
  rw [lhs_idx, rhs_idx]

/-! ## The reductions -/

/-- The sum over the rows, at column `j`. -/
theorem colSum_read (Y : FVec Ideal S32768x1024 .f32) (j : Fin 1024) :
    Host.reduceAdd (F := Ideal) Y (constant (F := Ideal) S_ .f32 0x00000000#32) reducesTo_S32768x1024_S1024_d0 h_S_ (ix1 j)
      = ∑ m : Fin 32768, Y (ix2 m j) := by
  have hR : S32768x1024.Reduces [0] S1024 := by decide
  rw [hostReduceAdd_apply]
  refine (Ideal.hostReduceAdd_single reducesTo_S32768x1024_S1024_d0 hR Y _ (ix1 j)).trans ?_
  rw [constant_apply, Ideal.ofBits_zero_f32, zero_add]
  refine Finset.sum_congr rfl fun m _ => congrArg Y (funext fun a => Fin.ext ?_)
  match a with
  | ⟨0, _⟩ => rfl
  | ⟨1, _⟩ => rfl

/-- The sum over the columns, at row `m`. -/
theorem rowSum_read (Y : FVec Ideal S32768x1024 .f32) (m : Fin 32768) :
    Host.reduceAdd (F := Ideal) Y (constant (F := Ideal) S_ .f32 0x00000000#32) reducesTo_S32768x1024_S32768_d1 h_S_ (ix1 m)
      = ∑ k : Fin 1024, Y (ix2 m k) := by
  have hR : S32768x1024.Reduces [1] S32768 := by decide
  rw [hostReduceAdd_apply]
  refine (Ideal.hostReduceAdd_single reducesTo_S32768x1024_S32768_d1 hR Y _ (ix1 m)).trans ?_
  rw [constant_apply, Ideal.ofBits_zero_f32, zero_add]
  refine Finset.sum_congr rfl fun k _ => congrArg Y (funext fun a => Fin.ext ?_)
  match a with
  | ⟨0, _⟩ => rfl
  | ⟨1, _⟩ => rfl

/-- A rank-one index is its one coordinate … -/
def idxEquiv1 {n : Nat} : (⟨1, ![n]⟩ : Shape).Idx ≃ Fin n where
  toFun i := i 0
  invFun a := ix1 a
  left_inv i := (eq_ix1 i).symm
  right_inv _ := rfl

/-- … so a sum over the index set is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of a vector's entries. -/
theorem vecSum_read (v : FVec Ideal S32768 .f32) (j : S_.Idx) :
    Host.reduceAdd (F := Ideal) v (constant (F := Ideal) S_ .f32 0x00000000#32) reducesTo_S32768_S_d0 h_S_ j
      = ∑ m : Fin 32768, v (ix1 m) := by
  rw [hostReduceAdd_apply]
  refine (Ideal.hostReduceAdd_total reducesTo_S32768_S_d0 (fun b => b.elim0) v _ j).trans ?_
  rw [constant_apply, Ideal.ofBits_zero_f32, zero_add]
  exact sum_idx1 v

/-- The sum of all entries of the array, rows outermost. -/
theorem total_read (Y : FVec Ideal S32768x1024 .f32) (j : S_.Idx) :
    Host.reduceAdd (F := Ideal) Y (constant (F := Ideal) S_ .f32 0x00000000#32) reducesTo_S32768x1024_S_d0_1 h_S_ j
      = ∑ m : Fin 32768, ∑ k : Fin 1024, Y (ix2 m k) := by
  rw [hostReduceAdd_apply]
  refine (Ideal.hostReduceAdd_total reducesTo_S32768x1024_S_d0_1 (fun b => b.elim0) Y _ j).trans ?_
  rw [constant_apply, Ideal.ofBits_zero_f32, zero_add]
  exact sum_idx2 Y

/-! ## A vector laid on the rows -/

/-- Padding by nothing, then the vector as a column, then the column copied along the rows: at `(i, j)` the
    vector's entry `i`. -/
theorem rows_read (v : FVec Ideal S1024 .f32) (z : FVec Ideal S_ .f32) (i j : Fin 1024) :
    broadcastInDim S1024x1024 ![0, 1] bcast_S1024x1_S1024x1024_0_1
        (broadcastInDim S1024x1 ![0] bcast_S1024_S1024x1_0
          (pad S1024 ![0] ![0] ![0] v z pads_S1024_S1024_000 h_S_)) (ix2 i j)
      = v (ix1 i) := by
  rw [broadcastInDim_apply ![0, 1] bcast_S1024x1_S1024x1024_0_1 _ (ix2 i j) (ix2 i (0 : Fin 1))
        (fun a => by match a with | ⟨0, _⟩ => rfl | ⟨1, _⟩ => rfl),
      broadcastInDim_apply ![0] bcast_S1024_S1024x1_0 _ (ix2 i (0 : Fin 1)) (ix1 i)
        (fun a => by match a with | ⟨0, _⟩ => rfl),
      pad_apply_of_inside ![0] ![0] ![0] v z pads_S1024_S1024_000 h_S_ (ix1 i) (ix1 i)
        (fun a => by match a with | ⟨0, _⟩ => simp)]

/-! ## The diagonal's mask -/

/-- The comparison of the row number with the column number, as 32-bit words, at `(i, j)`: the bit is set exactly
    on the diagonal (both numbers are below 2³²). -/
theorem mask_apply (hb : S_.BroadcastsInDim S1024x1024 (![] : Fin 0 → Fin 2)) (i j : Fin 1024) :
    (cmpi .eq (addi (iotaInDim S1024x1024 32 0) (broadcastInDim S1024x1024 ![] hb (constantI S_ 32 0#32)))
        (iotaInDim S1024x1024 32 1)) (ix2 i j)
      = if i = j then 1#1 else 0#1 := by
  show BitVec.ofBool (BitVec.ofNat 32 i.val + 0#32 == BitVec.ofNat 32 j.val) = _
  rw [BitVec.add_zero]
  by_cases h : i = j
  · subst h
    simp
  · have hne : BitVec.ofNat 32 i.val ≠ BitVec.ofNat 32 j.val := fun e => h ((Cert.Decorr.Eye.word_eq_iff i j).mp e)
    rw [if_neg h, beq_eq_false_iff_ne.mpr hne]
    rfl

/-- A select on that bit is the choice on `i = j`. -/
theorem select_diag {α : Type} (i j : Fin 1024) (a b : α) :
    Scalar.select (if i = j then 1#1 else 0#1) a b = if i = j then a else b := by
  by_cases h : i = j
  · rw [if_pos h, if_pos h, select_one]
  · rw [if_neg h, if_neg h, select_zero]

end Cert.ReferenceIdeal.RefReads

end
-- ==== Proof.RefConsts.lean ====
/-
  The float constants the reference program spells, as the extended reals their bit patterns denote:
  32768 = 2^15, 1048576 = 2^20, 33554432 = 2^25, 1 and 1/2.  (The zero word is the library's `Ideal.ofBits_zero_f32`.)
-/
import Idealize.ShloMosaic.PureOps.Ideal
import Idealize.ShloMosaic.PureOps.Ideal.Laws

noncomputable section

namespace Cert.ReferenceIdeal.RefConsts

open Idealize.ShloMosaic

/-- `32768.0`: sign 0, exponent 142 = 127 + 15, significand 0. -/
theorem ofBits_32768 : Ideal.ofBits .f32 0x47000000#32 = ((32768 : ℝ) : EReal) := by
  simp [Ideal.ofBits, Ideal.ieee, -EReal.coe_mul]; norm_num

/-- `1048576.0`: exponent 147 = 127 + 20. -/
theorem ofBits_1048576 : Ideal.ofBits .f32 0x49800000#32 = ((1048576 : ℝ) : EReal) := by
  simp [Ideal.ofBits, Ideal.ieee, -EReal.coe_mul]; norm_num

/-- `33554432.0`: exponent 152 = 127 + 25. -/
theorem ofBits_33554432 : Ideal.ofBits .f32 0x4C000000#32 = ((33554432 : ℝ) : EReal) := by
  simp [Ideal.ofBits, Ideal.ieee, -EReal.coe_mul]; norm_num

/-- `1.0`: exponent 127. -/
theorem ofBits_one : Ideal.ofBits .f32 0x3F800000#32 = ((1 : ℝ) : EReal) := by
  simp [Ideal.ofBits, Ideal.ieee, -EReal.coe_mul]; norm_num

/-- `0.5`: exponent 126. -/
theorem ofBits_half : Ideal.ofBits .f32 0x3F000000#32 = ((1 / 2 : ℝ) : EReal) := by
  simp [Ideal.ofBits, Ideal.ieee, -EReal.coe_mul]; norm_num

/-- `0.0`. -/
theorem ofBits_zero : Ideal.ofBits .f32 0x00000000#32 = ((0 : ℝ) : EReal) := by
  rw [Ideal.ofBits_zero_f32]; rfl

end Cert.ReferenceIdeal.RefConsts

end
-- ==== Proof.RefEq.lean ====
/-
  The reference's three results are the three results of the specification, when the input's entries are reals.

  Each proof reads the result's term at an index, operation by operation, down to sums of products of the
  input's entries; rewrites the entries as reals; moves the coercion outside the sums, products and differences;
  and finishes over the reals, where division by 32768, 1048576 and 33554432 is multiplication by the reciprocal.
-/
import proofs.«164931_j41618233099088_2_alg».proof.Proof.RefTerms
import proofs.«164931_j41618233099088_2_alg».proof.Proof.RefReads
import proofs.«164931_j41618233099088_2_alg».proof.Proof.RefConsts
import proofs.«164931_j41618233099088_2_alg».proof.Proof.LibEye
import proofs.«164931_j41618233099088_2_alg».proof.Proof.Spec

noncomputable section

open scoped BigOperators

namespace Cert.ReferenceIdeal.RefValue

open Cert.ReferenceIdeal Cert.ReferenceIdeal.Gen Cert.ReferenceIdeal.RefReads Cert.ReferenceIdeal.RefConsts
  Idealize.ShloMosaic Idealize.ShloMosaic.ValueIdx

variable (X : FVec Ideal S32768x1024 .f32) (R : Fin 32768 → Fin 1024 → ℝ)

/-- A sum of coerced reals is the coerced sum. -/
theorem sum_coe {ι : Type} [Fintype ι] (f : ι → ℝ) : ∑ i, ((f i : ℝ) : EReal) = ((∑ i, f i : ℝ) : EReal) :=
  (coe_sum Finset.univ f).symm

/-- The square of an entry. -/
theorem sq_apply (hX : ∀ a b, X (ix2 a b) = ((R a b : ℝ) : EReal)) (m : Fin 32768) (k : Fin 1024) :
    sq X (ix2 m k) = ((R m k * R m k : ℝ) : EReal) := by
  unfold sq
  rw [mulf_apply, hX, EReal.coe_mul]

/-- The square of an entry minus one. -/
theorem sqM1_apply (hX : ∀ a b, X (ix2 a b) = ((R a b : ℝ) : EReal)) (m : Fin 32768) (k : Fin 1024) :
    sqM1 X (ix2 m k) = ((R m k * R m k - 1 : ℝ) : EReal) := by
  unfold sqM1
  rw [subf_apply, sq_apply X R hX, bcast_const_apply, ofBits_one, EReal.coe_sub]

/-- The sum over the rows of the products of two columns is the Gram sum. -/
theorem gram_sum (hX : ∀ a b, X (ix2 a b) = ((R a b : ℝ) : EReal)) (i j : Fin 1024) :
    ∑ m : Fin 32768, X (ix2 m i) * X (ix2 m j) = ((Cert.Decorr.gram R i j : ℝ) : EReal) := by
  unfold Cert.Decorr.gram
  rw [← sum_coe]
  exact Finset.sum_congr rfl fun m _ => by rw [hX, hX, EReal.coe_mul]

/-- The column's mean of squares minus one. -/
theorem colMeanM1_apply (hX : ∀ a b, X (ix2 a b) = ((R a b : ℝ) : EReal)) (j : Fin 1024) :
    colMeanM1 X (ix1 j) = ((Cert.Decorr.gram R j j / 32768 - 1 : ℝ) : EReal) := by
  unfold colMeanM1
  rw [subf_apply, hostDivf_apply, colSum_read, bcast_const_apply, bcast_const_apply, ofBits_32768, ofBits_one]
  have hs : ∑ m : Fin 32768, sq X (ix2 m j) = ((Cert.Decorr.gram R j j : ℝ) : EReal) := by
    rw [← gram_sum X R hX j j]
    exact Finset.sum_congr rfl fun m _ => by unfold sq; rw [mulf_apply]
  rw [hs, Ideal.div_coe (by norm_num : (32768 : ℝ) ≠ 0), ← EReal.coe_mul, ← EReal.coe_sub]
  rw [EReal.coe_eq_coe_iff]
  ring

/-- The diagonal matrix of the column means minus one. -/
theorem diagArr_apply (hX : ∀ a b, X (ix2 a b) = ((R a b : ℝ) : EReal)) (i j : Fin 1024) :
    diagArr X (ix2 i j) = ((if i = j then Cert.Decorr.gram R i i / 32768 - 1 else 0 : ℝ) : EReal) := by
  unfold diagArr eqMask
  rw [select_apply, mask_apply, select_diag, rows_read, colMeanM1_apply X R hX, bcast_const_apply, ofBits_zero]
  by_cases h : i = j
  · rw [if_pos h, if_pos h]
  · rw [if_neg h, if_neg h]

/-- The first result. -/
theorem resGrad_eq (hX : ∀ a b, X (ix2 a b) = ((R a b : ℝ) : EReal)) : resGrad X = Cert.Decorr.Ggrad R := by
  funext idx
  obtain ⟨i, j, rfl⟩ : ∃ (i j : Fin 1024), idx = ix2 i j := ⟨idx 0, idx 1, eq_ix2 idx⟩
  rw [Cert.Decorr.Ggrad_ix2]
  unfold resGrad eqMask
  rw [addf_apply, mulf_apply, mulf_apply, mulf_apply, hostDivf_apply, subf_apply, gram_read, gram_sum X R hX,
    Cert.Decorr.Eye.eye_apply, diagArr_apply X R hX]
  rw [bcast_const_apply, bcast_const_apply, bcast_const_apply, ofBits_32768, ofBits_one, ofBits_half]
  rw [Ideal.div_coe (by norm_num : (32768 : ℝ) ≠ 0)]
  simp only [← EReal.coe_mul, ← EReal.coe_sub, ← EReal.coe_add]
  rw [EReal.coe_eq_coe_iff]
  unfold Cert.Decorr.grad
  ring

/-- One row's sum of squares. -/
theorem rowSq_apply (hX : ∀ a b, X (ix2 a b) = ((R a b : ℝ) : EReal)) (m : Fin 32768) :
    rowSq X (ix1 m) = ((∑ k, R m k * R m k : ℝ) : EReal) := by
  unfold rowSq
  rw [rowSum_read, ← sum_coe]
  exact Finset.sum_congr rfl fun k _ => sq_apply X R hX m k

/-- One row's sum of fourth powers. -/
theorem rowQuad_apply (hX : ∀ a b, X (ix2 a b) = ((R a b : ℝ) : EReal)) (m : Fin 32768) :
    rowQuad X (ix1 m) = ((∑ k, (R m k * R m k) * (R m k * R m k) : ℝ) : EReal) := by
  unfold rowQuad
  rw [rowSum_read, ← sum_coe]
  exact Finset.sum_congr rfl fun k _ => by rw [mulf_apply, sq_apply X R hX, ← EReal.coe_mul]

/-- The second result. -/
theorem resCorr_eq (hX : ∀ a b, X (ix2 a b) = ((R a b : ℝ) : EReal)) : resCorr X = Cert.Decorr.Gcorr R := by
  funext idx
  show resCorr X idx = ((Cert.Decorr.corr R : ℝ) : EReal)
  unfold resCorr
  rw [hostDivf_apply, hostDivf_apply, constant_apply, constant_apply, vecSum_read, ofBits_32768, ofBits_1048576]
  have hs : ∑ m : Fin 32768, (subf (mulf (rowSq X) (rowSq X)) (rowQuad X)) (ix1 m)
      = ((∑ m, Cert.Decorr.corrRow (R m) : ℝ) : EReal) := by
    rw [← sum_coe]
    refine Finset.sum_congr rfl fun m _ => ?_
    rw [subf_apply, mulf_apply, rowSq_apply X R hX, rowQuad_apply X R hX, ← EReal.coe_mul, ← EReal.coe_sub]
    rfl
  rw [hs, Ideal.div_coe (by norm_num : (32768 : ℝ) ≠ 0), Ideal.div_coe (by norm_num : (1048576 : ℝ) ≠ 0),
    ← EReal.coe_mul, ← EReal.coe_mul]
  rw [EReal.coe_eq_coe_iff]
  unfold Cert.Decorr.corr
  ring

/-- The third result. -/
theorem resWhit_eq (hX : ∀ a b, X (ix2 a b) = ((R a b : ℝ) : EReal)) : resWhit X = Cert.Decorr.Gwhit R := by
  funext idx
  show resWhit X idx = ((Cert.Decorr.whit R : ℝ) : EReal)
  unfold resWhit
  rw [hostDivf_apply, constant_apply, total_read, ofBits_33554432]
  have hs : ∑ m : Fin 32768, ∑ k : Fin 1024, (mulf (sqM1 X) (sqM1 X)) (ix2 m k)
      = ((∑ m, Cert.Decorr.whitRow (R m) : ℝ) : EReal) := by
    rw [← sum_coe]
    refine Finset.sum_congr rfl fun m _ => ?_
    unfold Cert.Decorr.whitRow
    rw [← sum_coe]
    exact Finset.sum_congr rfl fun k _ => by rw [mulf_apply, sqM1_apply X R hX, ← EReal.coe_mul]
  rw [hs, Ideal.div_coe (by norm_num : (33554432 : ℝ) ≠ 0), ← EReal.coe_mul]
  rw [EReal.coe_eq_coe_iff]
  unfold Cert.Decorr.whit
  ring

end Cert.ReferenceIdeal.RefValue

end
-- ==== Proof.Finite.lean ====
/-
  Finite inputs are real: if the precondition's test "every entry's absolute value is below +∞" holds, every entry
  of the input is the coercion of a real number.

  The test is a conjunction over all entries (a reduction by `and` into one bit); a conjunction that is 1 had a 1
  at every entry; the bit at an entry is 1 exactly when `max x (−x) < +∞` there (the pattern 0x7F800000 denotes
  `+∞`); and an extended real whose absolute value is below `+∞` is neither `+∞` nor `−∞`.
-/
import proofs.«164931_j41618233099088_2_alg».proof.Pre_finite_inputs
import proofs.«164931_j41618233099088_2_alg».proof.Proof.Gen.Pre_finite_inputs
import Idealize.ShloMosaic.PureOps.Ideal
import Idealize.ShloMosaic.Lib.ValueIdx
import Idealize.ShloMosaic.Lib.ReduceAll

noncomputable section

namespace Cert.Decorr.Finite

open Idealize.ShloMosaic Idealize.ShloMosaic.ValueIdx

/-- The rank-zero shape has one index. -/
instance : Subsingleton Cert.Pre_finite_inputs.S_.Idx := ⟨fun a b => funext fun d => d.elim0⟩

/-- The pattern `0x7F800000` denotes `+∞`. -/
theorem ofBits_inf : Ideal.ofBits .f32 0x7F800000#32 = ⊤ := by
  simp [Ideal.ofBits, Ideal.ieee]

/-- An extended real whose absolute value is below `+∞` is a real. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- Under the precondition every entry of the input is a real. -/
theorem real_of_pre (x : FVec Ideal Cert.Pre_finite_inputs.S8x4096x1024 .f32)
    (h : Cert.Pre_finite_inputs.fn (F := Ideal) x = fun _ => 1#1) : ∀ i, ∃ r : ℝ, x i = ((r : ℝ) : EReal) := by
  intro i
  have h0 := congrFun h ix0
  dsimp only [Cert.Pre_finite_inputs.fn] at h0
  have hi := Host.reduce_andi_all _ _ _ _ ix0 h0 i
  have hb : BitVec.ofBool (decide (max (x i) (-(x i)) < Ideal.ofBits .f32 0x7F800000#32)) = 1#1 := hi
  have hlt : max (x i) (-(x i)) < Ideal.ofBits .f32 0x7F800000#32 := by
    by_contra hn
    rw [decide_eq_false hn] at hb
    exact absurd hb (by decide)
  rw [ofBits_inf] at hlt
  exact real_of_abs_lt_top (x i) hlt

end Cert.Decorr.Finite

end
-- ==== Proof.lean ====
/-
  The kernel against its reference, over the extended reals.

  The input is 32768 samples of 1024 features.  Both programs compute
    * half the mean outer product of the samples off the diagonal, and on the diagonal half of the mean
      square minus one;
    * the mean over the samples of (Σ_j x_j²)² − Σ_j x_j⁴, divided by 1024²;
    * the mean over all entries of (x² − 1)².
  The reference computes them from whole-array sums.  The kernel splits the samples into two halves of
  eight tiles of 2048 samples, accumulates per half the tile sums (the Gram matrix as three products of
  the "high" and "low" parts of the tile, which at exact arithmetic are the tile itself and zero), divides
  each half's sums by the sample count, and the operations after the region add the two halves and
  subtract half the identity once.  The two agree because every input is a real number (the
  precondition), so all sums are finite and the divisions and the factor one half distribute over the
  sum of the two halves: each side is the coercion of the same real number (module Spec), the kernel's
  through the regrouping of 32768 rows as 2 × 8 × 2048 (module Regroup).

  Modules: Spec (the real-valued results), KPieces / KOuts / KInput / KAccum / KFinal (what the kernel's
  buffers hold point by point, and its three results), Pay… (the body's arithmetic read at an index),
  RefRun / RefValue / RefEq (the reference's run and its results), Finite (every input is real).
-/
import proofs.«164931_j41618233099088_2_alg».proof.Defs
import proofs.«164931_j41618233099088_2_alg».proof.Proof.Gen.Kernel
import proofs.«164931_j41618233099088_2_alg».proof.Proof.Gen.Kernel.Skeleton
import proofs.«164931_j41618233099088_2_alg».proof.Proof.Gen.Kernel.Launch
import proofs.«164931_j41618233099088_2_alg».proof.Proof.Gen.Kernel.Points
import proofs.«164931_j41618233099088_2_alg».proof.Proof.Gen.Kernel.Frame
import proofs.«164931_j41618233099088_2_alg».proof.Proof.Gen.KernelIdeal
import proofs.«164931_j41618233099088_2_alg».proof.Proof.Gen.KernelIdeal.Skeleton
import proofs.«164931_j41618233099088_2_alg».proof.Proof.Gen.KernelIdeal.Launch
import proofs.«164931_j41618233099088_2_alg».proof.Proof.Gen.KernelIdeal.Points
import proofs.«164931_j41618233099088_2_alg».proof.Proof.Gen.KernelIdeal.Frame
import proofs.«164931_j41618233099088_2_alg».proof.Proof.Gen.ReferenceIdeal
import proofs.«164931_j41618233099088_2_alg».proof.Proof.Gen.Pre_finite_inputs
import proofs.«164931_j41618233099088_2_alg».proof.Proof.KFinal
import proofs.«164931_j41618233099088_2_alg».proof.Proof.RefValue
import proofs.«164931_j41618233099088_2_alg».proof.Proof.RefEq
import proofs.«164931_j41618233099088_2_alg».proof.Proof.Finite
import Idealize.ShloMosaic.Adequacy
import Idealize.ShloMosaic.Init

noncomputable section

namespace Cert.Proof

open Idealize.ShloMosaic Idealize.SL.Sem Idealize.ShloMosaic.ValueIdx Cert.Decorr

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2.2)
    (Cert.ReferenceIdeal.RefValue.run m ρ)

/-- Rounding to the narrower format and widening back is the identity on the extended reals. -/
theorem preserves : Cert.preserves_Kernel_KernelIdeal :=
  IdealRules.truncf_extf.statement _ .f32 .bf16

/-- Both programs end at the three real-valued results of the flattened input. -/
theorem algebraic : Cert.algebraic_KernelIdeal_ReferenceIdeal := by
  intro m ρ m' ρ' hpre hagree
  -- every entry of the flattened input is a real number
  have hreal : ∀ (c : Dev Cert.KernelIdeal.nD) (a : Fin 32768) (b : Fin 1024),
      ∃ r : ℝ, Cert.KernelIdeal.KInput.flat m c (ix2 a b) = ((r : ℝ) : EReal) := fun c a b => by
    unfold Cert.KernelIdeal.KInput.flat shapeCast
    exact Cert.Decorr.Finite.real_of_pre _ (hpre c) _
  let R : Dev Cert.KernelIdeal.nD → Fin 32768 → Fin 1024 → ℝ :=
    fun c a b => (Cert.KernelIdeal.KInput.flat m c (ix2 a b)).toReal
  have hR : ∀ c, Cert.KernelIdeal.KAccum.Reads m c (R c) := fun c a b => by
    obtain ⟨r, hr⟩ := hreal c a b
    show _ = (((Cert.KernelIdeal.KInput.flat m c (ix2 a b)).toReal : ℝ) : EReal)
    rw [hr, EReal.toReal_coe]
  refine ⟨fun c => Ggrad (R c), fun c => Gcorr (R c), fun c => Gwhit (R c), ?_, ?_⟩
  · refine (θ_run Cert.KernelIdeal.defs _ _).mono (fun r h c => ?_) (Cert.KernelIdeal.Gen.run_main m ρ)
    exact ⟨((h c).2 Cert.KernelIdeal.main_v12 (Pipeline.mem_restRefs_of Cert.KernelIdeal.main_v12 (by decide) (by decide))).trans
        (Cert.KernelIdeal.KFinal.tail_grad m c (R c) (hR c)),
      ((h c).2 Cert.KernelIdeal.main_v13 (Pipeline.mem_restRefs_of Cert.KernelIdeal.main_v13 (by decide) (by decide))).trans
        (Cert.KernelIdeal.KFinal.tail_corr m c (R c) (hR c)),
      ((h c).2 Cert.KernelIdeal.main_v14 (Pipeline.mem_restRefs_of Cert.KernelIdeal.main_v14 (by decide) (by decide))).trans
        (Cert.KernelIdeal.KFinal.tail_whit m c (R c) (hR c)),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c)⟩
  · refine (θ_run Cert.ReferenceIdeal.defs _ _).mono (fun r h c => ?_) (Cert.ReferenceIdeal.RefValue.run m' ρ')
    obtain ⟨h1, h2, h3, h4⟩ := h c
    have hX : ∀ a b, Cert.ReferenceIdeal.RefValue.Xof
        (m' ((c.tc : Thread Cert.ReferenceIdeal.nD Cert.ReferenceIdeal.τ).loc Cert.ReferenceIdeal.main_arg0)) (ix2 a b)
        = ((R c a b : ℝ) : EReal) := by
      rw [hagree c]
      exact hR c
    exact ⟨h1.trans (Cert.ReferenceIdeal.RefValue.resGrad_eq _ (R c) hX),
      h2.trans (Cert.ReferenceIdeal.RefValue.resCorr_eq _ (R c) hX),
      h3.trans (Cert.ReferenceIdeal.RefValue.resWhit_eq _ (R c) hX), h4⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
